-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x224x224 : Shape := ⟨4, ![16, 3, 224, 224]⟩
abbrev S64x135 : Shape := ⟨2, ![64, 135]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S64x135 : S_.BroadcastsInDim S64x135 (![] : Fin 0 → Fin S64x135.rank)
  reducesTo_S64x135_S_d0_1 : S64x135.ReducesTo [0, 1] S_

variable [Facts]

def fn {F : FTy → Type} [FloatOps F] (main_arg0 : FVec F S16x3x224x224 .f32) (main_arg1 : FVec F S64x135 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S64x135 .f32 := Host.absf main_arg1
  let main_cst_0 : FVec F S_ .f32 := constant S_ .f32 0x7F800000#32
  let main_v5 : FVec F S64x135 .f32 := broadcastInDim S64x135 ![] bcast_S_S64x135 main_cst_0
  let main_v6 : IVec S64x135 1 := cmpf .olt main_v4 main_v5
  let main_c_1 : IVec S_ 1 := constantI S_ 1 1#1
  let main_v7 : IVec S_ 1 := (fun x v => Host.reduce IntOp.andi x v reducesTo_S64x135_S_d0_1 h_S_) main_v6 main_c_1
  let main_v8 : IVec S_ 1 := andi main_v3 main_v7
  main_v8
-- ==== Kernel.lean ====
abbrev S16x3x224x224 : Shape := ⟨4, ![16, 3, 224, 224]⟩
abbrev S64x135 : Shape := ⟨2, ![64, 135]⟩
abbrev S_ : Shape := ⟨0, ![]⟩
abbrev S16x3x258x224 : Shape := ⟨4, ![16, 3, 258, 224]⟩
abbrev S16x64x49284 : Shape := ⟨3, ![16, 64, 49284]⟩
abbrev S1x3x258x224 : Shape := ⟨4, ![1, 3, 258, 224]⟩
abbrev S1x64x14208 : Shape := ⟨3, ![1, 64, 14208]⟩
abbrev S1x3x66x224 : Shape := ⟨4, ![1, 3, 66, 224]⟩
abbrev S3x66x224 : Shape := ⟨3, ![3, 66, 224]⟩
abbrev S3x64x222 : Shape := ⟨3, ![3, 64, 222]⟩
abbrev S3x14208 : Shape := ⟨2, ![3, 14208]⟩
abbrev S64x14208 : Shape := ⟨2, ![64, 14208]⟩
abbrev S1x14208 : Shape := ⟨2, ![1, 14208]⟩
abbrev S14208 : Shape := ⟨1, ![14208]⟩
abbrev S45x14208 : Shape := ⟨2, ![45, 14208]⟩
abbrev S64x45 : Shape := ⟨2, ![64, 45]⟩
abbrev S16x64x222x222 : Shape := ⟨4, ![16, 64, 222, 222]⟩

abbrev nBuf : Space → Nat
  | .hbm => 7
  | .vmem => 5
  | .smem => 0
  | _ => 0

abbrev bufTy : (tb : Table) → Fin (tcTables nBuf tb) → BufTy
  | .hbm, ⟨0, _⟩ => ⟨S16x3x224x224, .f32⟩
  | .hbm, ⟨1, _⟩ => ⟨S64x135, .f32⟩
  | .hbm, ⟨2, _⟩ => ⟨S_, .i32⟩
  | .hbm, ⟨3, _⟩ => ⟨S_, .f32⟩
  | .hbm, ⟨4, _⟩ => ⟨S16x3x258x224, .f32⟩
  | .hbm, ⟨5, _⟩ => ⟨S16x64x49284, .f32⟩
  | .hbm, ⟨6, _⟩ => ⟨S16x64x222x222, .f32⟩
  | .local _ .vmem, ⟨0, _⟩ => ⟨S1x3x258x224, .f32⟩
  | .local _ .vmem, ⟨1, _⟩ => ⟨S1x3x258x224, .f32⟩
  | .local _ .vmem, ⟨2, _⟩ => ⟨S64x135, .f32⟩
  | .local _ .vmem, ⟨3, _⟩ => ⟨S1x64x14208, .f32⟩
  | .local _ .vmem, ⟨4, _⟩ => ⟨S1x64x14208, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x258x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x135 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x14208 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x3x224x224_S16x3x258x224_000_000_0340_000 : S16x3x224x224.Pads (![0, 0, 0, 0] : Fin 4 → Nat) ![0, 0, 34, 0] ![0, 0, 0, 0] S16x3x258x224
  h_S_ : 0 < S_.numel
  h_S1x3x66x224 : 0 < S1x3x66x224.numel
  shapeCasts_S1x3x66x224_S3x66x224 : S1x3x66x224.ShapeCasts S3x66x224
  slices_S3x66x224_o0_0_0_S3x64x222 : S3x66x224.Slices ![0, 0, 0] S3x64x222
  shapeCasts_S3x64x222_S3x14208 : S3x64x222.ShapeCasts S3x14208
  slices_S3x66x224_o0_0_1_S3x64x222 : S3x66x224.Slices ![0, 0, 1] S3x64x222
  slices_S3x66x224_o0_0_2_S3x64x222 : S3x66x224.Slices ![0, 0, 2] S3x64x222
  slices_S3x66x224_o0_1_0_S3x64x222 : S3x66x224.Slices ![0, 1, 0] S3x64x222
  slices_S3x66x224_o0_1_1_S3x64x222 : S3x66x224.Slices ![0, 1, 1] S3x64x222
  slices_S3x66x224_o0_1_2_S3x64x222 : S3x66x224.Slices ![0, 1, 2] S3x64x222
  slices_S3x66x224_o0_2_0_S3x64x222 : S3x66x224.Slices ![0, 2, 0] S3x64x222
  slices_S3x66x224_o0_2_1_S3x64x222 : S3x66x224.Slices ![0, 2, 1] S3x64x222
  slices_S3x66x224_o0_2_2_S3x64x222 : S3x66x224.Slices ![0, 2, 2] S3x64x222
  slices_S3x14208_o0_0_S1x14208 : S3x14208.Slices ![0, 0] S1x14208
  shapeCasts_S1x14208_S14208 : S1x14208.ShapeCasts S14208
  shapeCasts_S14208_S1x14208 : S14208.ShapeCasts S1x14208
  concatenates_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S1x14208_S45x14208_d0 : Shape.Concatenates (S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: S1x14208 :: []) S45x14208 0
  bitsLt_bf16_f32 : FTy.bits .bf16 < FTy.bits .f32
  inb_S64x135_S64x45_0_0 : ∀ a, (![0, 0] : Fin 2 → Nat) a + S64x45.size a ≤ S64x135.size a
  h_S64x45 : 0 < S64x45.numel
  slices_S3x14208_o1_0_S1x14208 : S3x14208.Slices ![1, 0] S1x14208
  inb_S64x135_S64x45_0_45 : ∀ a, (![0, 45] : Fin 2 → Nat) a + S64x45.size a ≤ S64x135.size a
  slices_S3x14208_o2_0_S1x14208 : S3x14208.Slices ![2, 0] S1x14208
  inb_S64x135_S64x45_0_90 : ∀ a, (![0, 90] : Fin 2 → Nat) a + S64x45.size a ≤ S64x135.size a
  inb_S1x64x14208_S1x64x14208_0_0_0 : ∀ a, (![0, 0, 0] : Fin 3 → Nat) a + S1x64x14208.size a ≤ S1x64x14208.size a
  h_S1x64x14208 : 0 < S1x64x14208.numel
  shapeCasts_S1x64x14208_S64x14208 : S1x64x14208.ShapeCasts S64x14208
  shapeCasts_S64x14208_S1x64x14208 : S64x14208.ShapeCasts S1x64x14208
  shapeCasts_S16x64x49284_S16x64x222x222 : S16x64x49284.ShapeCasts S16x64x222x222
  dot_S64x45_S45x14208_S64x14208_1_0_0_1_n_n_wf : DotDims.WF S64x45 S45x14208 S64x14208 [1] [0] [0] [1] [] []
  hrank0 : 0 < grid0.rank
  k0_mult1_dvd : ∀ i : grid0.Coords, 64 ∣ (k0_mult1 i).toNat
  k0_off1_inb : ∀ i : grid0.Coords, ∀ a, (k0_off1 i) a + S1x3x66x224.size a ≤ S1x3x258x224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x258x224.size a ≤ S16x3x258x224.size a
  hwx0_0 : ∀ i : grid0.Coords, EltTy.bits .f32 = 32 ∨ (Rect.block (s := S16x3x258x224) S1x3x258x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x135.size a ≤ S64x135.size a
  hwx0_1 : ∀ i : grid0.Coords, EltTy.bits .f32 = 32 ∨ (Rect.block (s := S64x135) S64x135.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x14208.size a < S16x64x49284.size a
  hwx0_2 : ∀ i : grid0.Coords, EltTy.bits .f32 = 32 ∨ (Rect.unit (s := S16x64x49284) (fun a => cc0_transform_2 i a * S1x64x14208.size a) (fun a => (Pipeline.Clip.of (cc0_transform_2 i a) (S1x64x14208.size a) (S16x64x49284.size a)).extent (S1x64x14208.size a)) fun a => Pipeline.Clip.inb (Pipeline.Clip.ok_of (hstart0_2 i a))).WholeWords (EltTy.packing .f32)
  hwxs0_2 : ∀ i : grid0.Coords, EltTy.bits .f32 = 32 ∨ (Rect.unit (s := S1x64x14208) (fun _ => 0) (fun a => (Pipeline.Clip.of (cc0_transform_2 i a) (S1x64x14208.size a) (S16x64x49284.size a)).extent (S1x64x14208.size a)) fun a => (Nat.zero_add _).trans_le (Pipeline.Clip.extent_le (Pipeline.Clip.ok_of (hstart0_2 i a)))).WholeWords (EltTy.packing .f32)

variable [Facts₀]

def dot_S64x45_S45x14208_S64x14208_1_0_0_1_n_n : DotDims S64x45 S45x14208 S64x14208 where
  lhsContracting := [1]
  rhsContracting := [0]
  lhsNonContracting := [0]
  rhsNonContracting := [1]
  lhsBatch := []
  rhsBatch := []
  wf := dot_S64x45_S45x14208_S64x14208_1_0_0_1_n_n_wf

abbrev win0_0 : Pipeline.Window sig grid0 :=
  Pipeline.Window.ofSpec (Memref.whole main_v0) S1x3x258x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x135.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S1x64x14208.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x224x224 : Shape := ⟨4, ![16, 3, 224, 224]⟩
abbrev S64x135 : Shape := ⟨2, ![64, 135]⟩
abbrev S45x2 : Shape := ⟨2, ![45, 2]⟩
abbrev S16x3x222x222 : Shape := ⟨4, ![16, 3, 222, 222]⟩
abbrev S16x3x1x222x222 : Shape := ⟨5, ![16, 3, 1, 222, 222]⟩
abbrev S16x3x9x222x222 : Shape := ⟨5, ![16, 3, 9, 222, 222]⟩
abbrev S16x222x222x3x9 : Shape := ⟨5, ![16, 222, 222, 3, 9]⟩
abbrev S16x49284x3x9 : Shape := ⟨4, ![16, 49284, 3, 9]⟩
abbrev S45x1 : Shape := ⟨2, ![45, 1]⟩
abbrev S45 : Shape := ⟨1, ![45]⟩
abbrev S_ : Shape := ⟨0, ![]⟩
abbrev S16x49284x3x45 : Shape := ⟨4, ![16, 49284, 3, 45]⟩
abbrev S16x49284x135 : Shape := ⟨3, ![16, 49284, 135]⟩
abbrev S64x16x49284 : Shape := ⟨3, ![64, 16, 49284]⟩
abbrev S16x64x49284 : Shape := ⟨3, ![16, 64, 49284]⟩
abbrev S16x64x222x222 : Shape := ⟨4, ![16, 64, 222, 222]⟩

abbrev nBuf : Space → Nat
  | .hbm => 51
  | .vmem => 0
  | .smem => 0
  | _ => 0

abbrev bufTy : (tb : Table) → Fin (tcTables nBuf tb) → BufTy
  | .hbm, ⟨0, _⟩ => ⟨S16x3x224x224, .f32⟩
  | .hbm, ⟨1, _⟩ => ⟨S64x135, .f32⟩
  | .hbm, ⟨2, _⟩ => ⟨S45x2, .i32⟩
  | .hbm, ⟨3, _⟩ => ⟨S16x3x222x222, .f32⟩
  | .hbm, ⟨4, _⟩ => ⟨S16x3x222x222, .f32⟩
  | .hbm, ⟨5, _⟩ => ⟨S16x3x222x222, .f32⟩
  | .hbm, ⟨6, _⟩ => ⟨S16x3x222x222, .f32⟩
  | .hbm, ⟨7, _⟩ => ⟨S16x3x222x222, .f32⟩
  | .hbm, ⟨8, _⟩ => ⟨S16x3x222x222, .f32⟩
  | .hbm, ⟨9, _⟩ => ⟨S16x3x222x222, .f32⟩
  | .hbm, ⟨10, _⟩ => ⟨S16x3x222x222, .f32⟩
  | .hbm, ⟨11, _⟩ => ⟨S16x3x222x222, .f32⟩
  | .hbm, ⟨12, _⟩ => ⟨S16x3x1x222x222, .f32⟩
  | .hbm, ⟨13, _⟩ => ⟨S16x3x1x222x222, .f32⟩
  | .hbm, ⟨14, _⟩ => ⟨S16x3x1x222x222, .f32⟩
  | .hbm, ⟨15, _⟩ => ⟨S16x3x1x222x222, .f32⟩
  | .hbm, ⟨16, _⟩ => ⟨S16x3x1x222x222, .f32⟩
  | .hbm, ⟨17, _⟩ => ⟨S16x3x1x222x222, .f32⟩
  | .hbm, ⟨18, _⟩ => ⟨S16x3x1x222x222, .f32⟩
  | .hbm, ⟨19, _⟩ => ⟨S16x3x1x222x222, .f32⟩
  | .hbm, ⟨20, _⟩ => ⟨S16x3x1x222x222, .f32⟩
  | .hbm, ⟨21, _⟩ => ⟨S16x3x9x222x222, .f32⟩
  | .hbm, ⟨22, _⟩ => ⟨S16x222x222x3x9, .f32⟩
  | .hbm, ⟨23, _⟩ => ⟨S16x49284x3x9, .f32⟩
  | .hbm, ⟨24, _⟩ => ⟨S45x1, .i32⟩
  | .hbm, ⟨25, _⟩ => ⟨S45, .i32⟩
  | .hbm, ⟨26, _⟩ => ⟨S_, .i32⟩
  | .hbm, ⟨27, _⟩ => ⟨S45, .i32⟩
  | .hbm, ⟨28, _⟩ => ⟨S45, .i1⟩
  | .hbm, ⟨29, _⟩ => ⟨S_, .i32⟩
  | .hbm, ⟨30, _⟩ => ⟨S45, .i32⟩
  | .hbm, ⟨31, _⟩ => ⟨S45, .i32⟩
  | .hbm, ⟨32, _⟩ => ⟨S45, .i32⟩
  | .hbm, ⟨33, _⟩ => ⟨S45x1, .i32⟩
  | .hbm, ⟨34, _⟩ => ⟨S16x49284x3x45, .f32⟩
  | .hbm, ⟨35, _⟩ => ⟨S45x1, .i32⟩
  | .hbm, ⟨36, _⟩ => ⟨S45, .i32⟩
  | .hbm, ⟨37, _⟩ => ⟨S_, .i32⟩
  | .hbm, ⟨38, _⟩ => ⟨S45, .i32⟩
  | .hbm, ⟨39, _⟩ => ⟨S45, .i1⟩
  | .hbm, ⟨40, _⟩ => ⟨S_, .i32⟩
  | .hbm, ⟨41, _⟩ => ⟨S45, .i32⟩
  | .hbm, ⟨42, _⟩ => ⟨S45, .i32⟩
  | .hbm, ⟨43, _⟩ => ⟨S45, .i32⟩
  | .hbm, ⟨44, _⟩ => ⟨S45x1, .i32⟩
  | .hbm, ⟨45, _⟩ => ⟨S16x49284x3x45, .f32⟩
  | .hbm, ⟨46, _⟩ => ⟨S16x49284x3x45, .f32⟩
  | .hbm, ⟨47, _⟩ => ⟨S16x49284x135, .f32⟩
  | .hbm, ⟨48, _⟩ => ⟨S64x16x49284, .f32⟩
  | .hbm, ⟨49, _⟩ => ⟨S16x64x49284, .f32⟩
  | .hbm, ⟨50, _⟩ => ⟨S16x64x222x222, .f32⟩
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_c_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_2 : Ref sig .tc := ⟨.hbm, 37, rfl⟩
abbrev main_v32 : Ref sig .tc := ⟨.hbm, 38, rfl⟩
abbrev main_v33 : Ref sig .tc := ⟨.hbm, 39, rfl⟩
abbrev main_c_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  slices_S16x3x224x224_S16x3x222x222_0_0_0_0 : S16x3x224x224.Slices ![0, 0, 0, 0] S16x3x222x222
  slices_S16x3x224x224_S16x3x222x222_0_0_0_1 : S16x3x224x224.Slices ![0, 0, 0, 1] S16x3x222x222
  slices_S16x3x224x224_S16x3x222x222_0_0_0_2 : S16x3x224x224.Slices ![0, 0, 0, 2] S16x3x222x222
  slices_S16x3x224x224_S16x3x222x222_0_0_1_0 : S16x3x224x224.Slices ![0, 0, 1, 0] S16x3x222x222
  slices_S16x3x224x224_S16x3x222x222_0_0_1_1 : S16x3x224x224.Slices ![0, 0, 1, 1] S16x3x222x222
  slices_S16x3x224x224_S16x3x222x222_0_0_1_2 : S16x3x224x224.Slices ![0, 0, 1, 2] S16x3x222x222
  slices_S16x3x224x224_S16x3x222x222_0_0_2_0 : S16x3x224x224.Slices ![0, 0, 2, 0] S16x3x222x222
  slices_S16x3x224x224_S16x3x222x222_0_0_2_1 : S16x3x224x224.Slices ![0, 0, 2, 1] S16x3x222x222
  slices_S16x3x224x224_S16x3x222x222_0_0_2_2 : S16x3x224x224.Slices ![0, 0, 2, 2] S16x3x222x222
  bcast_S16x3x222x222_S16x3x1x222x222_0_1_3_4 : S16x3x222x222.BroadcastsInDim S16x3x1x222x222 (![0, 1, 3, 4] : Fin 4 → Fin S16x3x1x222x222.rank)
  concatenates_S16x3x1x222x222_S16x3x1x222x222_S16x3x1x222x222_S16x3x1x222x222_S16x3x1x222x222_S16x3x1x222x222_S16x3x1x222x222_S16x3x1x222x222_S16x3x1x222x222_S16x3x9x222x222_d2 : Shape.Concatenates [S16x3x1x222x222, S16x3x1x222x222, S16x3x1x222x222, S16x3x1x222x222, S16x3x1x222x222, S16x3x1x222x222, S16x3x1x222x222, S16x3x1x222x222, S16x3x1x222x222] S16x3x9x222x222 2
  transposes_S16x3x9x222x222_S16x222x222x3x9_0_3_4_1_2 : S16x3x9x222x222.Transposes [0, 3, 4, 1, 2] S16x222x222x3x9
  shapeCasts_S16x222x222x3x9_S16x49284x3x9 : S16x222x222x3x9.ShapeCasts S16x49284x3x9
  slices_S45x2_S45x1_0_0 : S45x2.Slices ![0, 0] S45x1
  shapeCasts_S45x1_S45 : S45x1.ShapeCasts S45
  bcast_S_S45 : S_.BroadcastsInDim S45 (![] : Fin 0 → Fin S45.rank)
  bcast_S45_S45x1_0 : S45.BroadcastsInDim S45x1 (![0] : Fin 1 → Fin S45x1.rank)
  slices_S45x2_S45x1_0_1 : S45x2.Slices ![0, 1] S45x1
  shapeCasts_S16x49284x3x45_S16x49284x135 : S16x49284x3x45.ShapeCasts S16x49284x135
  transposes_S64x16x49284_S16x64x49284_1_0_2 : S64x16x49284.Transposes [1, 0, 2] S16x64x49284
  shapeCasts_S16x64x49284_S16x64x222x222 : S16x64x49284.ShapeCasts S16x64x222x222
  gather_S16x49284x3x9_S45x1_S16x49284x3x45_012_3_n_n_3_1_164928431_wf : GatherDims.WF S16x49284x3x9 S45x1 S16x49284x3x45 [0, 1, 2] [3] [] [3] [] 1 ![16, 49284, 3, 1]
  dot_S64x135_S16x49284x135_S64x16x49284_1_2_0_01_n_n_wf : DotDims.WF S64x135 S16x49284x135 S64x16x49284 [1] [2] [0] [0, 1] [] []

variable [Facts₀]

def gather_S16x49284x3x9_S45x1_S16x49284x3x45_012_3_n_n_3_1_164928431 : GatherDims S16x49284x3x9 S45x1 S16x49284x3x45 where
  offsetDims := [0, 1, 2]
  collapsedSliceDims := [3]
  operandBatchingDims := []
  startIndicesBatchingDims := []
  startIndexMap := [3]
  indexVectorDim := 1
  sliceSizes := ![16, 49284, 3, 1]
  wf := gather_S16x49284x3x9_S45x1_S16x49284x3x45_012_3_n_n_3_1_164928431_wf
def dot_S64x135_S16x49284x135_S64x16x49284_1_2_0_01_n_n : DotDims S64x135 S16x49284x135 S64x16x49284 where
  lhsContracting := [1]
  rhsContracting := [2]
  lhsNonContracting := [0]
  rhsNonContracting := [0, 1]
  lhsBatch := []
  rhsBatch := []
  wf := dot_S64x135_S16x49284x135_S64x16x49284_1_2_0_01_n_n_wf

class Facts : Prop extends Facts₀ where

variable [Facts]
-- ==== Proof.Spec.lean ====
/-
  The specification both programs are compared with.

  For an image `x : [16, 3, 224, 224]` and weights `w : [64, 135]` the result at batch `b`, output channel `o`,
  row `h` and column `v` is
      Σ_{c < 3} Σ_{k < 45}  w[o, 45·c + k] · ( x[b, c, h + A(k)/3, v + A(k)%3] · x[b, c, h + B(k)/3, v + B(k)%3] ),
  where `(A(k), B(k))` is the `k`-th pair `a ≤ b` of positions of the 3×3 window in lexicographic order (the
  order-2 combinations with replacement of the nine positions), a position `a` sitting at row `a / 3` and column
  `a % 3` of the window. The image is read through `xAt`, which is `0` outside the 224 × 224 plane: that is the
  image padded with zero rows below, and inside the plane it is the image itself.
-/
import Idealize.ShloMosaic.PureOps.Ideal
import Idealize.ShloMosaic.Lib.ValueIdx

noncomputable section

namespace Cert.DeConv

open Idealize.ShloMosaic Idealize.ShloMosaic.ValueIdx

/-- First position of the `k`-th pair. -/
def pairA : Fin 45 → Fin 9 :=
  ![0, 0, 0, 0, 0, 0, 0, 0, 0, 1, 1, 1, 1, 1, 1, 1, 1, 2, 2, 2, 2, 2, 2, 2, 3, 3, 3, 3, 3, 3, 4, 4, 4, 4, 4,
    5, 5, 5, 5, 6, 6, 6, 7, 7, 8]

/-- Second position of the `k`-th pair. -/
def pairB : Fin 45 → Fin 9 :=
  ![0, 1, 2, 3, 4, 5, 6, 7, 8, 1, 2, 3, 4, 5, 6, 7, 8, 2, 3, 4, 5, 6, 7, 8, 3, 4, 5, 6, 7, 8, 4, 5, 6, 7, 8,
    5, 6, 7, 8, 6, 7, 8, 7, 8, 8]

/-- The feature `45·c + k` of channel `c` and pair `k`. -/
def featIdx (c : Fin 3) (k : Fin 45) : Fin 135 := ⟨45 * c.val + k.val, by omega⟩

/-- The image at `(b, c, r, s)`, zero outside the plane. -/
def xAt (x : (⟨4, ![16, 3, 224, 224]⟩ : Shape).Idx → EReal) (b : Fin 16) (c : Fin 3) (r s : Nat) : EReal :=
  if h : r < 224 ∧ s < 224 then x (ix4 b c ⟨r, h.1⟩ ⟨s, h.2⟩) else 0

/-- One summand: the weight of feature `(c, k)` times the product of the two window entries of pair `k`. -/
def term (x : (⟨4, ![16, 3, 224, 224]⟩ : Shape).Idx → EReal) (w : (⟨2, ![64, 135]⟩ : Shape).Idx → EReal)
    (b : Fin 16) (o : Fin 64) (h v : Nat) (c : Fin 3) (k : Fin 45) : EReal :=
  w (ix2 o (featIdx c k)) *
    (xAt x b c (h + (pairA k).val / 3) (v + (pairA k).val % 3) * xAt x b c (h + (pairB k).val / 3) (v + (pairB k).val % 3))

/-- The result at `(b, o)`, window origin `(h, v)`. -/
def val (x : (⟨4, ![16, 3, 224, 224]⟩ : Shape).Idx → EReal) (w : (⟨2, ![64, 135]⟩ : Shape).Idx → EReal)
    (b : Fin 16) (o : Fin 64) (h v : Nat) : EReal :=
  ∑ c : Fin 3, ∑ k : Fin 45, term x w b o h v c k

/-- The whole result array. -/
def G (x : (⟨4, ![16, 3, 224, 224]⟩ : Shape).Idx → EReal) (w : (⟨2, ![64, 135]⟩ : Shape).Idx → EReal) :
    (⟨4, ![16, 64, 222, 222]⟩ : Shape).Idx → EReal :=
  fun j => val x w (j 0) (j 1) (j 2).val (j 3).val

/-- The row of a staged image window (258 rows: the padded image of one batch entry) that position `a` of the 3×3
    window reads for entry `l` of the flat 64 × 222 tile number `ht`: tile row `l / 222` starts at row `64·ht`. -/
def winRow (ht : Nat) (hht : ht < 4) (l : Fin 14208) (a : Fin 9) : Fin 258 :=
  ⟨64 * ht + l.val / 222 + a.val / 3, by have := l.isLt; have := a.isLt; omega⟩

/-- The column it reads: tile column `l % 222` plus the position's column. -/
def winCol (l : Fin 14208) (a : Fin 9) : Fin 224 :=
  ⟨l.val % 222 + a.val % 3, by have := a.isLt; omega⟩

/-- A sum over the 135 features is the sum over channels of the sums over pairs. -/
theorem sum_feat {M : Type*} [AddCommMonoid M] (g : Fin 135 → M) :
    ∑ f : Fin 135, g f = ∑ c : Fin 3, ∑ k : Fin 45, g (featIdx c k) := by
  rw [← Fintype.sum_prod_type']
  refine (Fintype.sum_equiv (finProdFinEquiv (m := 3) (n := 45)) _ _ (fun p => ?_)).symm
  refine congrArg g (Fin.ext ?_)
  simp [featIdx, finProdFinEquiv, Nat.add_comm]

end Cert.DeConv

end
-- ==== Proof.KPad.lean ====
/-
  The padded image the region stages.

  Before the region the image `x : [16, 3, 224, 224]` is padded with 34 zero rows below each plane, to
  `[16, 3, 258, 224]`. Read at `(b, c, r, s)` the padded array is `x[b, c, r, s]` for `r < 224` and `0` on the
  added rows: the image read through `xAt`.
-/
import proofs.«135709_j56427280335471_2_alg».proof.Proof.Gen.KernelIdeal.Frame
import proofs.«135709_j56427280335471_2_alg».proof.Proof.Spec
import Idealize.ShloMosaic.Lib.KernelVsHost
import Idealize.ShloMosaic.Lib.StableHlo.Run
import Idealize.ShloMosaic.Lib.Pipeline.Value

noncomputable section

namespace Cert.KernelIdeal.ArrayValue

open Cert.KernelIdeal Cert.KernelIdeal.Gen Cert.DeConv
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The padded array, as the region finds it: the pad of the launch image by the converted integer zero. -/
theorem V_padded (c : Dev nD) :
    (V m c main_v0 : S16x3x258x224.Idx → EReal)
      = pad S16x3x258x224 ![0, 0, 0, 0] ![0, 0, 34, 0] ![0, 0, 0, 0] (m ((c : Thread nD τ).loc main_arg0))
          (sitofp (F := Ideal) .f32 (constantI S_ 32 0#32)) Facts₀.pads_S16x3x224x224_S16x3x258x224_000_000_0340_000 Facts₀.h_S_ := by
  dsimp only [Gen.V, Gen.V0]
  simp only [Gen.hostOps0, Gen.hostOps0_1, List.flatten_cons, List.flatten_nil, List.append_nil, List.cons_append,
    List.nil_append]
  after_results
  rfl

/-- The padded array at an index is the image read through `xAt`. -/
theorem V_padded_apply (c : Dev nD) (b : Fin 16) (c' : Fin 3) (r : Fin 258) (s : Fin 224) :
    (V m c main_v0 : S16x3x258x224.Idx → EReal) (ix4 b c' r s)
      = xAt (m ((c : Thread nD τ).loc main_arg0)) b c' r.val s.val := by
  rw [V_padded]
  by_cases hr : r.val < 224
  · rw [pad_apply_of_inside _ _ _ _ _ _ _ (ix4 b c' r s) (ix4 b c' ⟨r.val, hr⟩ s) (fun a => by
      match a with
      | ⟨0, _⟩ => simp
      | ⟨1, _⟩ => simp
      | ⟨2, _⟩ => simp
      | ⟨3, _⟩ => simp)]
    unfold xAt
    rw [dif_pos ⟨hr, s.isLt⟩]
  · rw [pad_apply_of_not_inside _ _ _ _ _ _ _ (ix4 b c' r s) (2 : Fin 4) (by
      intro h
      have h3 : (r.val - 0) / (0 + 1) < 224 := h.2.2
      omega)]
    unfold xAt
    rw [dif_neg (fun h => hr h.1)]
    exact sitofp_zero (φ := .f32)

end Cert.KernelIdeal.ArrayValue

end
-- ==== Proof.KWindow.lean ====
/-
  The windows of the one region, point by point.

  The grid has 64 points; point `t` is batch entry `t / 4` and row tile `t % 4`. At point `t` the image window is
  the whole padded plane stack of batch entry `t / 4`, the weight window the whole weight matrix, and the output
  window the flat tile `t % 4` (14208 = 64 · 222 entries, of which the last tile keeps the 6660 that lie inside the
  49284 = 222 · 222 entries of a plane) of all 64 output channels of batch entry `t / 4`. The output tiles of all
  points cover the output array.
-/
import proofs.«135709_j56427280335471_2_alg».proof.Proof.KPad

noncomputable section

namespace Cert.KernelIdeal.ArrayValue

open Cert.KernelIdeal Cert.KernelIdeal.Gen Cert.DeConv
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The index maps and the cut of the output tile, decided over the 64 points. -/
theorem point_facts : ∀ t : Fin cfg0.N,
    ((grid0.coords t) 1).val = t.val % 4
    ∧ win0_0.index t (0 : Fin 4) = t.val / 4 ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = t.val % 4
    ∧ win0_2.xsize (grid0.coords t) (0 : Fin 3) = 1 ∧ win0_2.xsize (grid0.coords t) (1 : Fin 3) = 64
    ∧ win0_2.xsize (grid0.coords t) (2 : Fin 3) = (if t.val % 4 = 3 then 6660 else 14208) :=
  (by decide +kernel : ∀ t : Fin grid0.N, _)

/-- The image window at point `t`, read at `(0, c', r, s)`: the image of batch entry `t / 4` through `xAt`. -/
theorem image_block (c : Dev nD) (t : Fin cfg0.N) (hb : t.val / 4 < 16) (c' : Fin 3) (r : Fin 258) (s : Fin 224) :
    (iblk m c 0 t : S1x3x258x224.Idx → EReal) (ix4 (0 : Fin 1) c' r s)
      = xAt (m ((c : Thread nD τ).loc main_arg0)) ⟨t.val / 4, hb⟩ c' r.val s.val := by
  obtain ⟨-, e0, e1, e2, e3, -⟩ := point_facts t
  rw [← V_padded_apply m c ⟨t.val / 4, hb⟩ c' r s]
  show V m c main_v0 (((cfg0.win 0).blk t).view.emb (ix4 (0 : Fin 1) c' r s)) = V m c main_v0 (ix4 _ c' r s)
  refine congrArg _ (funext fun a => Fin.ext ?_)
  match a with
  | ⟨0, _⟩ => show win0_0.index t (0 : Fin 4) * 1 + 1 * 0 = t.val / 4; omega
  | ⟨1, _⟩ => show win0_0.index t (1 : Fin 4) * 3 + 1 * c'.val = c'.val; omega
  | ⟨2, _⟩ => show win0_0.index t (2 : Fin 4) * 258 + 1 * r.val = r.val; omega
  | ⟨3, _⟩ => show win0_0.index t (3 : Fin 4) * 224 + 1 * s.val = s.val; omega

/-- The weight window at any point is the weight matrix. -/
theorem weight_block (c : Dev nD) (t : Fin cfg0.N) (o : Fin 64) (f : Fin 135) :
    (iblk m c 1 t : S64x135.Idx → EReal) (ix2 o f) = m ((c : Thread nD τ).loc main_arg1) (ix2 o f) := by
  obtain ⟨-, -, -, -, -, e0, e1, -⟩ := point_facts t
  refine Eq.trans ?_ (congrFun (V_main_arg1 m c) (ix2 o f))
  show V m c main_arg1 (((cfg0.win 1).blk t).view.emb (ix2 o f)) = V m c main_arg1 (ix2 o f)
  refine congrArg _ (funext fun a => Fin.ext ?_)
  match a with
  | ⟨0, _⟩ => show win0_1.index t (0 : Fin 2) * 64 + 1 * o.val = o.val; omega
  | ⟨1, _⟩ => show win0_1.index t (1 : Fin 2) * 135 + 1 * f.val = f.val; omega

/-- An index of the output array is in point `t`'s tile iff each coordinate is in the tile's range on its axis. -/
theorem mem_tile (t : Fin cfg0.N) (i : S16x64x49284.Idx) :
    i ∈ ((cfg0.win 2).blk t).view.set ↔ ∀ a : Fin 3, win0_2.index t a * S1x64x14208.size a ≤ (i a).val
      ∧ (i a).val < win0_2.index t a * S1x64x14208.size a + win0_2.xsize (grid0.coords t) a := by
  show i ∈ ((View.whole main_v1).slice (win0_2.rect t)).set ↔ _
  rw [View.set_slice_whole, Rect.mem_set_unit]
  exact Iff.rfl

/-- Every index of the output array lies in the tile of the point of its batch entry and row tile. -/
theorem tiles_cover (i : S16x64x49284.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 49284 := (i 2).isLt
  have hN : cfg0.N = 64 := N_0
  obtain ⟨t, ht⟩ : ∃ t : Fin cfg0.N, t.val = 4 * (i 0).val + (i 2).val / 14208 := ⟨⟨_, by omega⟩, rfl⟩
  refine ⟨t, flush0_2 t, ?_⟩
  rw [mem_tile]
  obtain ⟨-, -, -, -, -, -, -, e0, e1, e2, x0, x1, x2⟩ := point_facts t
  intro a
  match a with
  | ⟨0, _⟩ =>
    show win0_2.index t (0 : Fin 3) * 1 ≤ (i 0).val ∧ (i 0).val < win0_2.index t (0 : Fin 3) * 1 + win0_2.xsize (grid0.coords t) (0 : Fin 3)
    omega
  | ⟨1, _⟩ =>
    show win0_2.index t (1 : Fin 3) * 64 ≤ (i 1).val ∧ (i 1).val < win0_2.index t (1 : Fin 3) * 64 + win0_2.xsize (grid0.coords t) (1 : Fin 3)
    omega
  | ⟨2, _⟩ =>
    show win0_2.index t (2 : Fin 3) * 14208 ≤ (i 2).val ∧ (i 2).val < win0_2.index t (2 : Fin 3) * 14208 + win0_2.xsize (grid0.coords t) (2 : Fin 3)
    by_cases h3 : t.val % 4 = 3
    · rw [if_pos h3] at x2; omega
    · rw [if_neg h3] at x2; omega

end Cert.KernelIdeal.ArrayValue

end
-- ==== Proof.KBlockVal.lean ====
/-
  What the body leaves in the output's staging buffer is ONE store of the whole block, whose payload is a function of
  the two loads only: the 66-row window of the staged image starting at row `64 · (i 1)`, and three slices of 45
  consecutive columns of the weights. `blockVal` is that payload over the loaded values: the accumulation of the three
  per-channel products, each of a weight slice with the stack of that channel's 45 products of shifted patches.
-/
import proofs.«135709_j56427280335471_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Cert.KernelIdeal Cert.KernelIdeal.Gen

namespace Cert.KernelIdeal.Block

variable {F : FTy → Type} [FloatOps F]

/-- The stored block over the loaded window `v3` and the weight slices `w0`, `w1`, `w2` of the three channels. -/
def blockVal (v3 : Vec F S1x3x66x224 .f32) (w0 w1 w2 : Vec F S64x45 .f32) : FVec F S1x64x14208 .f32 :=
  k0_pay2 (k0_pay159 (k0_pay108 k0_pay13 (k0_pay63 (k0_pay12 v3)) (k0_pay64 (k0_pay14 v3)) (k0_pay65 (k0_pay15 v3)) (k0_pay66 (k0_pay16 v3)) (k0_pay67 (k0_pay17 v3)) (k0_pay68 (k0_pay18 v3)) (k0_pay69 (k0_pay21 (k0_pay19 v3) (k0_pay20 v3))) (k0_pay70 (k0_pay22 (k0_pay4 v3) (k0_pay10 v3))) (k0_pay71 (k0_pay23 (k0_pay4 v3) (k0_pay11 v3))) (k0_pay72 (k0_pay24 (k0_pay4 v3) (k0_pay12 v3))) (k0_pay73 (k0_pay25 (k0_pay5 v3))) (k0_pay74 (k0_pay26 (k0_pay5 v3) (k0_pay6 v3))) (k0_pay75 (k0_pay27 (k0_pay5 v3) (k0_pay7 v3))) (k0_pay76 (k0_pay28 (k0_pay5 v3) (k0_pay8 v3))) (k0_pay77 (k0_pay29 (k0_pay5 v3) (k0_pay9 v3))) (k0_pay78 (k0_pay30 (k0_pay5 v3) (k0_pay10 v3))) (k0_pay79 (k0_pay31 (k0_pay5 v3) (k0_pay11 v3))) (k0_pay80 (k0_pay32 (k0_pay5 v3) (k0_pay12 v3))) (k0_pay81 (k0_pay35 (k0_pay33 (k0_pay6 v3)) (k0_pay34 (k0_pay6 v3)))) (k0_pay82 (k0_pay36 (k0_pay6 v3) (k0_pay7 v3))) (k0_pay83 (k0_pay37 (k0_pay6 v3) (k0_pay8 v3))) (k0_pay84 (k0_pay38 (k0_pay6 v3) (k0_pay9 v3))) (k0_pay85 (k0_pay39 (k0_pay6 v3) (k0_pay10 v3))) (k0_pay86 (k0_pay40 (k0_pay6 v3) (k0_pay11 v3))) (k0_pay87 (k0_pay41 (k0_pay6 v3) (k0_pay12 v3))) (k0_pay88 (k0_pay42 (k0_pay7 v3))) (k0_pay89 (k0_pay43 (k0_pay7 v3) (k0_pay8 v3))) (k0_pay90 (k0_pay44 (k0_pay7 v3) (k0_pay9 v3))) (k0_pay91 (k0_pay45 (k0_pay7 v3) (k0_pay10 v3))) (k0_pay92 (k0_pay46 (k0_pay7 v3) (k0_pay11 v3))) (k0_pay93 (k0_pay49 (k0_pay47 (k0_pay7 v3)) (k0_pay48 (k0_pay12 v3)))) (k0_pay94 (k0_pay50 (k0_pay8 v3))) (k0_pay95 (k0_pay51 (k0_pay8 v3) (k0_pay9 v3))) (k0_pay96 (k0_pay52 (k0_pay8 v3) (k0_pay10 v3))) (k0_pay97 (k0_pay53 (k0_pay8 v3) (k0_pay11 v3))) (k0_pay98 (k0_pay54 (k0_pay8 v3) (k0_pay12 v3))) (k0_pay99 (k0_pay55 (k0_pay9 v3))) (k0_pay100 (k0_pay56 (k0_pay9 v3) (k0_pay10 v3))) (k0_pay101 (k0_pay57 (k0_pay9 v3) (k0_pay11 v3))) (k0_pay102 (k0_pay58 (k0_pay9 v3) (k0_pay12 v3))) (k0_pay103 (k0_pay59 (k0_pay10 v3))) (k0_pay104 (k0_pay60 (k0_pay10 v3) (k0_pay11 v3))) (k0_pay105 (k0_pay61 (k0_pay10 v3)) (k0_pay62 (k0_pay12 v3))) (k0_pay106 (k0_pay11 v3)) (k0_pay107 (k0_pay11 v3) (k0_pay12 v3)) w0) (k0_pay114 (k0_pay4 v3) (k0_pay9 v3)) (k0_pay115 (k0_pay4 v3) (k0_pay10 v3)) (k0_pay116 (k0_pay4 v3) (k0_pay11 v3)) (k0_pay117 (k0_pay4 v3) (k0_pay12 v3)) (k0_pay118 (k0_pay5 v3)) (k0_pay119 (k0_pay5 v3) (k0_pay6 v3)) (k0_pay120 (k0_pay5 v3) (k0_pay7 v3)) (k0_pay121 (k0_pay5 v3) (k0_pay8 v3)) (k0_pay122 (k0_pay5 v3) (k0_pay9 v3)) (k0_pay123 (k0_pay5 v3) (k0_pay10 v3)) (k0_pay124 (k0_pay5 v3) (k0_pay11 v3)) (k0_pay125 (k0_pay5 v3) (k0_pay12 v3)) (k0_pay126 (k0_pay6 v3)) (k0_pay127 (k0_pay6 v3) (k0_pay7 v3)) (k0_pay128 (k0_pay6 v3) (k0_pay8 v3)) (k0_pay129 (k0_pay6 v3) (k0_pay9 v3)) (k0_pay130 (k0_pay6 v3) (k0_pay10 v3)) (k0_pay131 (k0_pay6 v3) (k0_pay11 v3)) (k0_pay132 (k0_pay6 v3) (k0_pay12 v3)) (k0_pay133 (k0_pay7 v3)) (k0_pay134 (k0_pay7 v3) (k0_pay8 v3)) (k0_pay135 (k0_pay7 v3) (k0_pay9 v3)) (k0_pay136 (k0_pay7 v3) (k0_pay10 v3)) (k0_pay137 (k0_pay7 v3) (k0_pay11 v3)) (k0_pay138 (k0_pay7 v3) (k0_pay12 v3)) (k0_pay139 (k0_pay8 v3)) (k0_pay140 (k0_pay8 v3) (k0_pay9 v3)) (k0_pay141 (k0_pay8 v3) (k0_pay10 v3)) (k0_pay142 (k0_pay8 v3) (k0_pay11 v3)) (k0_pay143 (k0_pay8 v3) (k0_pay12 v3)) (k0_pay144 (k0_pay9 v3)) (k0_pay145 (k0_pay9 v3) (k0_pay10 v3)) (k0_pay146 (k0_pay9 v3) (k0_pay11 v3)) (k0_pay147 (k0_pay9 v3) (k0_pay12 v3)) (k0_pay148 (k0_pay10 v3)) (k0_pay149 (k0_pay10 v3) (k0_pay11 v3)) (k0_pay150 (k0_pay10 v3) (k0_pay12 v3)) (k0_pay151 (k0_pay11 v3)) (k0_pay152 (k0_pay11 v3) (k0_pay12 v3)) (k0_pay153 (k0_pay12 v3)) (k0_pay154 (k0_pay109 (k0_pay4 v3))) (k0_pay155 (k0_pay110 (k0_pay4 v3) (k0_pay5 v3))) (k0_pay156 (k0_pay111 (k0_pay4 v3) (k0_pay6 v3))) (k0_pay157 (k0_pay112 (k0_pay4 v3) (k0_pay7 v3))) (k0_pay158 (k0_pay113 (k0_pay4 v3) (k0_pay8 v3))) w1) (k0_pay1 (k0_pay189 (k0_pay9 v3) (k0_pay188 (k0_pay7 v3))) (k0_pay190 (k0_pay7 v3) (k0_pay10 v3)) (k0_pay191 (k0_pay7 v3) (k0_pay11 v3)) (k0_pay192 (k0_pay7 v3) (k0_pay12 v3)) (k0_pay193 (k0_pay8 v3)) (k0_pay194 (k0_pay8 v3) (k0_pay9 v3)) (k0_pay195 (k0_pay8 v3) (k0_pay10 v3)) (k0_pay196 (k0_pay8 v3) (k0_pay11 v3)) (k0_pay197 (k0_pay8 v3) (k0_pay12 v3)) (k0_pay198 (k0_pay9 v3)) (k0_pay199 (k0_pay9 v3) (k0_pay10 v3)) (k0_pay200 (k0_pay9 v3) (k0_pay11 v3)) (k0_pay202 (k0_pay12 v3) (k0_pay201 (k0_pay9 v3))) (k0_pay203 (k0_pay10 v3)) (k0_pay204 (k0_pay10 v3) (k0_pay11 v3)) (k0_pay205 (k0_pay10 v3) (k0_pay12 v3)) (k0_pay206 (k0_pay11 v3)) (k0_pay207 (k0_pay11 v3) (k0_pay12 v3)) (k0_pay208 (k0_pay12 v3)) (k0_pay209 (k0_pay160 (k0_pay4 v3))) (k0_pay210 (k0_pay161 (k0_pay4 v3) (k0_pay5 v3))) (k0_pay211 (k0_pay163 (k0_pay6 v3) (k0_pay162 (k0_pay4 v3)))) (k0_pay212 (k0_pay164 (k0_pay4 v3) (k0_pay7 v3))) (k0_pay213 (k0_pay165 (k0_pay4 v3) (k0_pay8 v3))) (k0_pay214 (k0_pay166 (k0_pay4 v3) (k0_pay9 v3))) (k0_pay215 (k0_pay167 (k0_pay4 v3) (k0_pay10 v3))) (k0_pay216 (k0_pay168 (k0_pay4 v3) (k0_pay11 v3))) (k0_pay217 (k0_pay169 (k0_pay4 v3) (k0_pay12 v3))) (k0_pay218 (k0_pay170 (k0_pay5 v3))) (k0_pay219 (k0_pay171 (k0_pay5 v3) (k0_pay6 v3))) (k0_pay220 (k0_pay172 (k0_pay5 v3) (k0_pay7 v3))) (k0_pay221 (k0_pay173 (k0_pay5 v3) (k0_pay8 v3))) (k0_pay222 (k0_pay174 (k0_pay5 v3) (k0_pay9 v3))) (k0_pay223 (k0_pay176 (k0_pay10 v3) (k0_pay175 (k0_pay5 v3)))) (k0_pay224 (k0_pay177 (k0_pay5 v3) (k0_pay11 v3))) (k0_pay225 (k0_pay178 (k0_pay5 v3) (k0_pay12 v3))) (k0_pay226 (k0_pay179 (k0_pay6 v3))) (k0_pay227 (k0_pay180 (k0_pay6 v3) (k0_pay7 v3))) (k0_pay228 (k0_pay181 (k0_pay6 v3) (k0_pay8 v3))) (k0_pay229 (k0_pay182 (k0_pay6 v3) (k0_pay9 v3))) (k0_pay230 (k0_pay183 (k0_pay6 v3) (k0_pay10 v3))) (k0_pay231 (k0_pay184 (k0_pay6 v3) (k0_pay11 v3))) (k0_pay232 (k0_pay185 (k0_pay6 v3) (k0_pay12 v3))) (k0_pay233 (k0_pay186 (k0_pay7 v3))) (k0_pay234 (k0_pay187 (k0_pay7 v3) (k0_pay8 v3)))) w2

theorem zero3 : (![0, 0, 0] : Fin 3 → Nat) = fun _ => 0 := funext fun a => by fin_cases a <;> rfl

/-- The block the body leaves is `blockVal` of its loads. -/
theorem out_eq (c : Dev nD) (i : grid0.Coords)
    (arg2 : Memref sig .tc .vmem S1x3x258x224 .f32) (harg2 : arg2.IsWhole) (arg3 : Memref sig .tc .vmem S64x135 .f32) (harg3 : arg3.IsWhole)
    (arg4 : Memref sig .tc .vmem S1x64x14208 .f32) (harg4 : arg4.IsWhole)
    (x0 : Vec F S1x3x258x224 .f32) (x1 : Vec F S64x135 .f32) :
    Gen.out0_A_2 (F := F) c i arg2 harg2 arg3 harg3 arg4 harg4 x0 x1
      = blockVal (View.ld x0 (Rect.unit (s := S1x3x258x224) (k0_off1 i) S1x3x66x224.size (k0_off1_inb i)))
          (View.ld x1 (Rect.unit (s := S64x135) ![0, 0] S64x45.size inb_S64x135_S64x45_0_0))
          (View.ld x1 (Rect.unit (s := S64x135) ![0, 45] S64x45.size inb_S64x135_S64x45_0_45))
          (View.ld x1 (Rect.unit (s := S64x135) ![0, 90] S64x45.size inb_S64x135_S64x45_0_90)) := by
  unfold out0_A_2
  rw [View.read_writes_eq_canon _ _ _ (cover0_A_2 c i arg2 harg2 arg3 harg3 arg4 harg4 x0 x1)]
  unfold kernelRun0_A
  dsimp only
  sl_unfold_run_names
  rw [View.canon_unit_zero zero3]
  simp only [View.readAt_eq_ld, harg2.read_unread, harg3.read_unread]
  rfl

end Cert.KernelIdeal.Block

end
-- ==== Proof.KBlockOps.lean ====
/-
  The layout operations of the kernel body read at an index, each over a variable of its literal vector type and
  explicit coordinates: the casts between a flat row of 14208 entries and a one-row matrix, a row of a three-row
  matrix, the flattening of a 3 × 64 × 222 patch to 3 × 14208 (entry `l` of a row is entry `(l / 222, l % 222)` of
  the patch), a shifted 64 × 222 patch of the 66 × 224 window, the window's leading unit axis, the stored block's
  leading unit axis; the stack of 45 rows read at a row; and the product of a 64 × 45 matrix with a 45 × 14208 one
  accumulated into zero, which at the extended reals is the plain sum over the 45 contracted entries.
-/
import proofs.«135709_j56427280335471_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open Cert.KernelIdeal Cert.KernelIdeal.Gen

namespace Cert.KernelIdeal.Block

section Layout
variable {α : Type}

/-- A flat row seen as a one-row matrix: entry `(0, l)` is entry `l`. -/
theorem toRow_apply (v : S14208.Idx → α) (h : S14208.ShapeCasts S1x14208) (l : Fin 14208) :
    shapeCast S1x14208 v h (ix2 (0 : Fin 1) l) = v (ix1 l) :=
  shapeCast_apply v h (ix2 (0 : Fin 1) l) (ix1 l) (by
    rw [Shape.rowMajor_val_one, Shape.rowMajor_val_two]
    show l.val = 0 * 14208 + l.val
    omega)

/-- A one-row matrix seen as a flat row: entry `l` is entry `(0, l)`. -/
theorem ofRow_apply (v : S1x14208.Idx → α) (h : S1x14208.ShapeCasts S14208) (l : Fin 14208) :
    shapeCast S14208 v h (ix1 l) = v (ix2 (0 : Fin 1) l) :=
  shapeCast_apply v h (ix1 l) (ix2 (0 : Fin 1) l) (by
    rw [Shape.rowMajor_val_one, Shape.rowMajor_val_two]
    show 0 * 14208 + l.val = l.val
    omega)

/-- Row `c` of a three-row matrix, cut out as a one-row matrix. -/
theorem row_apply (off : Fin 2 → Nat) (v : S3x14208.Idx → α) (h : S3x14208.Slices off S1x14208) (c : Fin 3)
    (hc : off 0 = c.val) (h0 : off 1 = 0) (l : Fin 14208) :
    extractStridedSlice S1x14208 off v h (ix2 (0 : Fin 1) l) = v (ix2 c l) :=
  extractStridedSlice_apply off v h (ix2 (0 : Fin 1) l) (ix2 c l) (fun a => by
    match a with
    | ⟨0, _⟩ => show c.val = off 0 + 0; omega
    | ⟨1, _⟩ => show l.val = off 1 + l.val; omega)

theorem row0_apply (v : S3x14208.Idx → α) (h : S3x14208.Slices ![0, 0] S1x14208) (l : Fin 14208) :
    extractStridedSlice S1x14208 ![0, 0] v h (ix2 (0 : Fin 1) l) = v (ix2 (0 : Fin 3) l) :=
  row_apply ![0, 0] v h 0 rfl rfl l
theorem row1_apply (v : S3x14208.Idx → α) (h : S3x14208.Slices ![1, 0] S1x14208) (l : Fin 14208) :
    extractStridedSlice S1x14208 ![1, 0] v h (ix2 (0 : Fin 1) l) = v (ix2 (1 : Fin 3) l) :=
  row_apply ![1, 0] v h 1 rfl rfl l
theorem row2_apply (v : S3x14208.Idx → α) (h : S3x14208.Slices ![2, 0] S1x14208) (l : Fin 14208) :
    extractStridedSlice S1x14208 ![2, 0] v h (ix2 (0 : Fin 1) l) = v (ix2 (2 : Fin 3) l) :=
  row_apply ![2, 0] v h 2 rfl rfl l

/-- The row of the 64 × 222 patch that flat entry `l` lies in. -/
def pRow (l : Fin 14208) : Fin 64 := ⟨l.val / 222, by have := l.isLt; omega⟩
/-- Its column. -/
def pCol (l : Fin 14208) : Fin 222 := ⟨l.val % 222, Nat.mod_lt _ (by decide)⟩

/-- A 3 × 64 × 222 patch flattened to 3 × 14208: entry `(c, l)` is entry `(c, l / 222, l % 222)`. -/
theorem flat_apply (v : S3x64x222.Idx → α) (h : S3x64x222.ShapeCasts S3x14208) (c : Fin 3) (l : Fin 14208) :
    shapeCast S3x14208 v h (ix2 c l) = v (ix3 c (pRow l) (pCol l)) :=
  shapeCast_apply v h (ix2 c l) (ix3 c (pRow l) (pCol l)) (by
    rw [Shape.rowMajor_val_three, Shape.rowMajor_val_two]
    show (c.val * 64 + l.val / 222) * 222 + l.val % 222 = c.val * 14208 + l.val
    have := l.isLt
    omega)

/-- The 64 × 222 patch of the 66 × 224 window shifted by `(a, b)`. -/
theorem patch_apply (a b : Nat) (v : S3x66x224.Idx → α) (h : S3x66x224.Slices ![0, a, b] S3x64x222)
    (c : Fin 3) (r : Fin 64) (s : Fin 222) (r' : Fin 66) (s' : Fin 224) (hr : r'.val = a + r.val) (hs : s'.val = b + s.val) :
    extractStridedSlice S3x64x222 ![0, a, b] v h (ix3 c r s) = v (ix3 c r' s') :=
  extractStridedSlice_apply ![0, a, b] v h (ix3 c r s) (ix3 c r' s') (fun d => by
    match d with
    | ⟨0, _⟩ => show c.val = 0 + c.val; omega
    | ⟨1, _⟩ => exact hr
    | ⟨2, _⟩ => exact hs)

/-- The window without its leading unit axis. -/
theorem win_apply (v : S1x3x66x224.Idx → α) (h : S1x3x66x224.ShapeCasts S3x66x224) (c : Fin 3) (r : Fin 66) (s : Fin 224) :
    shapeCast S3x66x224 v h (ix3 c r s) = v (ix4 (0 : Fin 1) c r s) :=
  shapeCast_apply v h (ix3 c r s) (ix4 (0 : Fin 1) c r s) (by
    rw [Shape.rowMajor_val_three, Shape.rowMajor_val_four]
    show ((0 * 3 + c.val) * 66 + r.val) * 224 + s.val = (c.val * 66 + r.val) * 224 + s.val
    omega)

/-- The stored block with its leading unit axis. -/
theorem blk_apply (v : S64x14208.Idx → α) (h : S64x14208.ShapeCasts S1x64x14208) (o : Fin 64) (l : Fin 14208) :
    shapeCast S1x64x14208 v h (ix3 (0 : Fin 1) o l) = v (ix2 o l) :=
  shapeCast_apply v h (ix3 (0 : Fin 1) o l) (ix2 o l) (by
    rw [Shape.rowMajor_val_three, Shape.rowMajor_val_two]
    show o.val * 14208 + l.val = (0 * 64 + o.val) * 14208 + l.val
    omega)

end Layout

end Cert.KernelIdeal.Block

end
-- ==== Proof.KBlockRow.lean ====
/-
  The nine shifted patches of the loaded window read at an entry: patch `p` (the position `p` of the 3 × 3 window, at
  row `p / 3` and column `p % 3`) flattened to 3 × 14208 has at `(c, l)` the window entry
  `(c, l / 222 + p / 3, l % 222 + p % 3)`.
-/
import proofs.«135709_j56427280335471_2_alg».proof.Proof.KBlockOps

noncomputable section

open Idealize.ShloMosaic Idealize.ShloMosaic.ValueIdx
open Cert.KernelIdeal Cert.KernelIdeal.Gen

namespace Cert.KernelIdeal.Block

variable {F : FTy → Type} [FloatOps F]

/-- The window entry that position `p` of the 3 × 3 window reads for flat entry `l` of channel `c`. -/
def pw (v3 : Vec F S1x3x66x224 .f32) (c : Fin 3) (p : Fin 9) (l : Fin 14208) : F .f32 :=
  v3 (ix4 (0 : Fin 1) c ⟨l.val / 222 + p.val / 3, by have := l.isLt; have := p.isLt; omega⟩
    ⟨l.val % 222 + p.val % 3, by have := p.isLt; omega⟩)

/-- A shifted patch of the window, flattened, at `(c, l)`. -/
theorem shifted_apply (a b : Nat) (ha : a < 3) (hb : b < 3) (v3 : Vec F S1x3x66x224 .f32)
    (h3 : S1x3x66x224.ShapeCasts S3x66x224) (h1 : S3x66x224.Slices ![0, a, b] S3x64x222) (h2 : S3x64x222.ShapeCasts S3x14208)
    (c : Fin 3) (l : Fin 14208) :
    shapeCast S3x14208 (extractStridedSlice S3x64x222 ![0, a, b] (shapeCast S3x66x224 v3 h3) h1) h2 (ix2 c l)
      = v3 (ix4 (0 : Fin 1) c ⟨l.val / 222 + a, by have := l.isLt; omega⟩ ⟨l.val % 222 + b, by have := Nat.mod_lt l.val (show 0 < 222 by decide); omega⟩) := by
  refine (flat_apply _ h2 c l).trans ?_
  refine (patch_apply a b _ h1 c (pRow l) (pCol l) ⟨l.val / 222 + a, by have := l.isLt; omega⟩
    ⟨l.val % 222 + b, by have := Nat.mod_lt l.val (show 0 < 222 by decide); omega⟩ ?_ ?_).trans ?_
  · show l.val / 222 + a = a + l.val / 222; omega
  · show l.val % 222 + b = b + l.val % 222; omega
  · exact win_apply v3 h3 c _ _

theorem p0_apply (v3 : Vec F S1x3x66x224 .f32) (c : Fin 3) (l : Fin 14208) : k0_pay4 v3 (ix2 c l) = pw v3 c 0 l :=
  shifted_apply 0 0 (by decide) (by decide) v3 _ _ _ c l
theorem p1_apply (v3 : Vec F S1x3x66x224 .f32) (c : Fin 3) (l : Fin 14208) : k0_pay5 v3 (ix2 c l) = pw v3 c 1 l :=
  shifted_apply 0 1 (by decide) (by decide) v3 _ _ _ c l
theorem p2_apply (v3 : Vec F S1x3x66x224 .f32) (c : Fin 3) (l : Fin 14208) : k0_pay6 v3 (ix2 c l) = pw v3 c 2 l :=
  shifted_apply 0 2 (by decide) (by decide) v3 _ _ _ c l
theorem p3_apply (v3 : Vec F S1x3x66x224 .f32) (c : Fin 3) (l : Fin 14208) : k0_pay7 v3 (ix2 c l) = pw v3 c 3 l :=
  shifted_apply 1 0 (by decide) (by decide) v3 _ _ _ c l
theorem p4_apply (v3 : Vec F S1x3x66x224 .f32) (c : Fin 3) (l : Fin 14208) : k0_pay8 v3 (ix2 c l) = pw v3 c 4 l :=
  shifted_apply 1 1 (by decide) (by decide) v3 _ _ _ c l
theorem p5_apply (v3 : Vec F S1x3x66x224 .f32) (c : Fin 3) (l : Fin 14208) : k0_pay9 v3 (ix2 c l) = pw v3 c 5 l :=
  shifted_apply 1 2 (by decide) (by decide) v3 _ _ _ c l
theorem p6_apply (v3 : Vec F S1x3x66x224 .f32) (c : Fin 3) (l : Fin 14208) : k0_pay10 v3 (ix2 c l) = pw v3 c 6 l :=
  shifted_apply 2 0 (by decide) (by decide) v3 _ _ _ c l
theorem p7_apply (v3 : Vec F S1x3x66x224 .f32) (c : Fin 3) (l : Fin 14208) : k0_pay11 v3 (ix2 c l) = pw v3 c 7 l :=
  shifted_apply 2 1 (by decide) (by decide) v3 _ _ _ c l
theorem p8_apply (v3 : Vec F S1x3x66x224 .f32) (c : Fin 3) (l : Fin 14208) : k0_pay12 v3 (ix2 c l) = pw v3 c 8 l :=
  shifted_apply 2 2 (by decide) (by decide) v3 _ _ _ c l

end Cert.KernelIdeal.Block

end
-- ==== Proof.KBlockArith.lean ====
/-
  The arithmetic of the kernel body read at an index, at the extended reals: the product of a 64 × 45 matrix with a
  45 × 14208 matrix accumulated into zero is the plain sum over the 45 contracted entries (the narrowing of both
  operands being the identity there); a stack of 45 one-row matrices read at row `k` is the `k`-th of them; the zero
  accumulator; and the two loads: rows `off .. off + 65` of the staged image and 45 consecutive columns of the weights.
-/
import proofs.«135709_j56427280335471_2_alg».proof.Proof.KBlockOps
import Idealize.ShloMosaic.Lib.Pipeline.FrameBody

noncomputable section

open Idealize.ShloMosaic Idealize.ShloMosaic.ValueIdx
open Cert.KernelIdeal Cert.KernelIdeal.Gen

namespace Cert.KernelIdeal.Block

/-- The left operand of the product is read at `(o, k)` ... -/
theorem mm_lhs (o : Fin 64) (l : Fin 14208) (k : Fin 45) :
    dot_S64x45_S45x14208_S64x14208_1_0_0_1_n_n.lhsIdx (ix2 o l)
        ((contrEquiv1 dot_S64x45_S45x14208_S64x14208_1_0_0_1_n_n 45 rfl rfl).symm k) = ix2 o k := by
  have hk := contrEquiv1_symm_val dot_S64x45_S45x14208_S64x14208_1_0_0_1_n_n 45 rfl rfl k
  refine funext fun a => Fin.ext ?_
  match a with
  | ⟨0, _⟩ =>
    show (dot_S64x45_S45x14208_S64x14208_1_0_0_1_n_n.lhsIdx (ix2 o l) _ 0).val = o.val
    unfold DotDims.lhsIdx
    rw [dif_neg (show ¬(0 : Fin S64x45.rank) ∈ dot_S64x45_S45x14208_S64x14208_1_0_0_1_n_n.lhsBatch by decide),
      dif_pos (show (0 : Fin S64x45.rank) ∈ dot_S64x45_S45x14208_S64x14208_1_0_0_1_n_n.lhsNonContracting by decide)]
    rfl
  | ⟨1, _⟩ =>
    exact (dot_S64x45_S45x14208_S64x14208_1_0_0_1_n_n.lhsIdx_val_of_single rfl (ix2 o l) _).trans hk

/-- ... and the right one at `(k, l)`. -/
theorem mm_rhs (o : Fin 64) (l : Fin 14208) (k : Fin 45) :
    dot_S64x45_S45x14208_S64x14208_1_0_0_1_n_n.rhsIdx (ix2 o l)
        ((contrEquiv1 dot_S64x45_S45x14208_S64x14208_1_0_0_1_n_n 45 rfl rfl).symm k) = ix2 k l := by
  have hk := contrEquiv1_symm_val dot_S64x45_S45x14208_S64x14208_1_0_0_1_n_n 45 rfl rfl k
  refine funext fun a => Fin.ext ?_
  match a with
  | ⟨0, _⟩ =>
    exact (dot_S64x45_S45x14208_S64x14208_1_0_0_1_n_n.rhsIdx_val_of_single rfl (ix2 o l) _).trans hk
  | ⟨1, _⟩ =>
    show (dot_S64x45_S45x14208_S64x14208_1_0_0_1_n_n.rhsIdx (ix2 o l) _ 1).val = l.val
    unfold DotDims.rhsIdx
    rw [dif_neg (show ¬(1 : Fin S45x14208.rank) ∈ dot_S64x45_S45x14208_S64x14208_1_0_0_1_n_n.rhsBatch by decide),
      dif_pos (show (1 : Fin S45x14208.rank) ∈ dot_S64x45_S45x14208_S64x14208_1_0_0_1_n_n.rhsNonContracting by decide)]
    rfl

/-- The product accumulated into zero, at `(o, l)`. -/
theorem mm_apply (W : Vec Ideal S64x45 .f32) (C : FVec Ideal S45x14208 .f32)
    (hW : FTy.bits .bf16 < FTy.bits .f32) (hC : FTy.bits .bf16 < FTy.bits .f32) (o : Fin 64) (l : Fin 14208) :
    matmul dot_S64x45_S45x14208_S64x14208_1_0_0_1_n_n none (truncf .bf16 W hW) (truncf .bf16 C hC)
        (constant (F := Ideal) S64x14208 .f32 0x00000000#32) (ix2 o l)
      = ∑ k : Fin 45, W (ix2 o k) * C (ix2 k l) := by
  simp only [matmul]
  rw [Ideal.matmul_constant_zero_apply,
    ← Equiv.sum_comp (contrEquiv1 dot_S64x45_S45x14208_S64x14208_1_0_0_1_n_n 45 rfl rfl).symm]
  refine Finset.sum_congr rfl fun k _ => ?_
  rw [mm_lhs, mm_rhs]
  rfl

section Stack
variable {α : Type}

/-- A stack of 45 one-row matrices read at `(k, l)` is entry `(0, l)` of the `k`-th. -/
theorem stack_apply (r0 r1 r2 r3 r4 r5 r6 r7 r8 r9 r10 r11 r12 r13 r14 r15 r16 r17 r18 r19 r20 r21 r22 r23 r24 r25 r26 r27 r28 r29 r30 r31 r32 r33 r34 r35 r36 r37 r38 r39 r40 r41 r42 r43 r44 : S1x14208.Idx → α)
    (h : Shape.Concatenates (([⟨S1x14208, r0⟩, ⟨S1x14208, r1⟩, ⟨S1x14208, r2⟩, ⟨S1x14208, r3⟩, ⟨S1x14208, r4⟩, ⟨S1x14208, r5⟩, ⟨S1x14208, r6⟩, ⟨S1x14208, r7⟩, ⟨S1x14208, r8⟩, ⟨S1x14208, r9⟩, ⟨S1x14208, r10⟩, ⟨S1x14208, r11⟩, ⟨S1x14208, r12⟩, ⟨S1x14208, r13⟩, ⟨S1x14208, r14⟩, ⟨S1x14208, r15⟩, ⟨S1x14208, r16⟩, ⟨S1x14208, r17⟩, ⟨S1x14208, r18⟩, ⟨S1x14208, r19⟩, ⟨S1x14208, r20⟩, ⟨S1x14208, r21⟩, ⟨S1x14208, r22⟩, ⟨S1x14208, r23⟩, ⟨S1x14208, r24⟩, ⟨S1x14208, r25⟩, ⟨S1x14208, r26⟩, ⟨S1x14208, r27⟩, ⟨S1x14208, r28⟩, ⟨S1x14208, r29⟩, ⟨S1x14208, r30⟩, ⟨S1x14208, r31⟩, ⟨S1x14208, r32⟩, ⟨S1x14208, r33⟩, ⟨S1x14208, r34⟩, ⟨S1x14208, r35⟩, ⟨S1x14208, r36⟩, ⟨S1x14208, r37⟩, ⟨S1x14208, r38⟩, ⟨S1x14208, r39⟩, ⟨S1x14208, r40⟩, ⟨S1x14208, r41⟩, ⟨S1x14208, r42⟩, ⟨S1x14208, r43⟩, ⟨S1x14208, r44⟩] : List ((s : Shape) × (s.Idx → α))).map (·.1)) S45x14208 0)
    (k : Fin 45) (l : Fin 14208) :
    concatenate S45x14208 0 [⟨S1x14208, r0⟩, ⟨S1x14208, r1⟩, ⟨S1x14208, r2⟩, ⟨S1x14208, r3⟩, ⟨S1x14208, r4⟩, ⟨S1x14208, r5⟩, ⟨S1x14208, r6⟩, ⟨S1x14208, r7⟩, ⟨S1x14208, r8⟩, ⟨S1x14208, r9⟩, ⟨S1x14208, r10⟩, ⟨S1x14208, r11⟩, ⟨S1x14208, r12⟩, ⟨S1x14208, r13⟩, ⟨S1x14208, r14⟩, ⟨S1x14208, r15⟩, ⟨S1x14208, r16⟩, ⟨S1x14208, r17⟩, ⟨S1x14208, r18⟩, ⟨S1x14208, r19⟩, ⟨S1x14208, r20⟩, ⟨S1x14208, r21⟩, ⟨S1x14208, r22⟩, ⟨S1x14208, r23⟩, ⟨S1x14208, r24⟩, ⟨S1x14208, r25⟩, ⟨S1x14208, r26⟩, ⟨S1x14208, r27⟩, ⟨S1x14208, r28⟩, ⟨S1x14208, r29⟩, ⟨S1x14208, r30⟩, ⟨S1x14208, r31⟩, ⟨S1x14208, r32⟩, ⟨S1x14208, r33⟩, ⟨S1x14208, r34⟩, ⟨S1x14208, r35⟩, ⟨S1x14208, r36⟩, ⟨S1x14208, r37⟩, ⟨S1x14208, r38⟩, ⟨S1x14208, r39⟩, ⟨S1x14208, r40⟩, ⟨S1x14208, r41⟩, ⟨S1x14208, r42⟩, ⟨S1x14208, r43⟩, ⟨S1x14208, r44⟩] h (ix2 k l)
      = (![r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44] : Fin 45 → S1x14208.Idx → α) k (ix2 (0 : Fin 1) l) :=
  concatenate_ofFn_unit_apply (t := S45x14208) (s₁ := S1x14208) 0 (![r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44] : Fin 45 → S1x14208.Idx → α) h rfl rfl
    (ix2 k l) k rfl (ix2 (0 : Fin 1) l) (fun b hb => by
      match b with
      | ⟨0, _⟩ => exact absurd rfl hb
      | ⟨1, _⟩ => rfl)

end Stack

/-- The zero accumulator. -/
theorem acc0_apply (j : S64x14208.Idx) : (k0_pay13 (F := Ideal)) j = 0 := by
  unfold k0_pay13
  exact Ideal.ofBits_zero_f32

section Loads
variable {F : FTy → Type}

/-- Rows `n .. n + 65` of the staged image. -/
theorem ldWin_apply (x0 : Vec F S1x3x258x224 .f32) (off : Fin 4 → Nat) (inb : ∀ a, off a + S1x3x66x224.size a ≤ S1x3x258x224.size a)
    (n : Nat) (hoff : off = ![0, 0, n, 0])
    (c : Fin 3) (r : Fin 66) (s : Fin 224) (r' : Fin 258) (hr : r'.val = n + r.val) :
    View.ld x0 (Rect.unit (s := S1x3x258x224) off S1x3x66x224.size inb) (ix4 (0 : Fin 1) c r s) = x0 (ix4 (0 : Fin 1) c r' s) := by
  subst hoff
  refine congrArg x0 (funext fun a => Fin.ext ?_)
  match a with
  | ⟨0, _⟩ => rfl
  | ⟨1, _⟩ => show 0 + 1 * c.val = c.val; omega
  | ⟨2, _⟩ => show n + 1 * r.val = r'.val; omega
  | ⟨3, _⟩ => show 0 + 1 * s.val = s.val; omega

/-- Columns `n .. n + 44` of the weights. -/
theorem ldW_apply (x1 : Vec F S64x135 .f32) (n : Nat) (inb : ∀ a, (![0, n] : Fin 2 → Nat) a + S64x45.size a ≤ S64x135.size a)
    (o : Fin 64) (k : Fin 45) (f : Fin 135) (hf : f.val = n + k.val) :
    View.ld x1 (Rect.unit (s := S64x135) ![0, n] S64x45.size inb) (ix2 o k) = x1 (ix2 o f) := by
  refine congrArg x1 (funext fun a => Fin.ext ?_)
  match a with
  | ⟨0, _⟩ => show 0 + 1 * o.val = o.val; omega
  | ⟨1, _⟩ => show n + 1 * k.val = f.val; omega

end Loads

end Cert.KernelIdeal.Block

end
-- ==== Proof.KBlockChan0.lean ====
/-
  Channel 0 of the block: the product of the channel's weight slice with the stack of its 45 rows, added to the
  accumulator. Row `k` of the stack is the entrywise product of the patches at the two positions of pair `k`, both taken
  in row 0 (the channel) of the flattened patches; so the channel's contribution at `(o, l)` is the sum over the 45
  pairs of the weight times the product of the two window entries the pair's positions read. The rows are checked one
  by one against the table of pairs.
-/
import proofs.«135709_j56427280335471_2_alg».proof.Proof.KBlockRow
import proofs.«135709_j56427280335471_2_alg».proof.Proof.KBlockArith
import proofs.«135709_j56427280335471_2_alg».proof.Proof.Spec

set_option maxRecDepth 16384

noncomputable section

open Idealize.ShloMosaic Idealize.ShloMosaic.ValueIdx
open Cert.KernelIdeal Cert.KernelIdeal.Gen Cert.DeConv

namespace Cert.KernelIdeal.Block

theorem chan0_apply (v3 : Vec Ideal S1x3x66x224 .f32) (w0 : Vec Ideal S64x45 .f32) (o : Fin 64) (l : Fin 14208) :
    k0_pay108 (F := Ideal) k0_pay13 (k0_pay63 (k0_pay12 v3)) (k0_pay64 (k0_pay14 v3)) (k0_pay65 (k0_pay15 v3)) (k0_pay66 (k0_pay16 v3)) (k0_pay67 (k0_pay17 v3)) (k0_pay68 (k0_pay18 v3)) (k0_pay69 (k0_pay21 (k0_pay19 v3) (k0_pay20 v3))) (k0_pay70 (k0_pay22 (k0_pay4 v3) (k0_pay10 v3))) (k0_pay71 (k0_pay23 (k0_pay4 v3) (k0_pay11 v3))) (k0_pay72 (k0_pay24 (k0_pay4 v3) (k0_pay12 v3))) (k0_pay73 (k0_pay25 (k0_pay5 v3))) (k0_pay74 (k0_pay26 (k0_pay5 v3) (k0_pay6 v3))) (k0_pay75 (k0_pay27 (k0_pay5 v3) (k0_pay7 v3))) (k0_pay76 (k0_pay28 (k0_pay5 v3) (k0_pay8 v3))) (k0_pay77 (k0_pay29 (k0_pay5 v3) (k0_pay9 v3))) (k0_pay78 (k0_pay30 (k0_pay5 v3) (k0_pay10 v3))) (k0_pay79 (k0_pay31 (k0_pay5 v3) (k0_pay11 v3))) (k0_pay80 (k0_pay32 (k0_pay5 v3) (k0_pay12 v3))) (k0_pay81 (k0_pay35 (k0_pay33 (k0_pay6 v3)) (k0_pay34 (k0_pay6 v3)))) (k0_pay82 (k0_pay36 (k0_pay6 v3) (k0_pay7 v3))) (k0_pay83 (k0_pay37 (k0_pay6 v3) (k0_pay8 v3))) (k0_pay84 (k0_pay38 (k0_pay6 v3) (k0_pay9 v3))) (k0_pay85 (k0_pay39 (k0_pay6 v3) (k0_pay10 v3))) (k0_pay86 (k0_pay40 (k0_pay6 v3) (k0_pay11 v3))) (k0_pay87 (k0_pay41 (k0_pay6 v3) (k0_pay12 v3))) (k0_pay88 (k0_pay42 (k0_pay7 v3))) (k0_pay89 (k0_pay43 (k0_pay7 v3) (k0_pay8 v3))) (k0_pay90 (k0_pay44 (k0_pay7 v3) (k0_pay9 v3))) (k0_pay91 (k0_pay45 (k0_pay7 v3) (k0_pay10 v3))) (k0_pay92 (k0_pay46 (k0_pay7 v3) (k0_pay11 v3))) (k0_pay93 (k0_pay49 (k0_pay47 (k0_pay7 v3)) (k0_pay48 (k0_pay12 v3)))) (k0_pay94 (k0_pay50 (k0_pay8 v3))) (k0_pay95 (k0_pay51 (k0_pay8 v3) (k0_pay9 v3))) (k0_pay96 (k0_pay52 (k0_pay8 v3) (k0_pay10 v3))) (k0_pay97 (k0_pay53 (k0_pay8 v3) (k0_pay11 v3))) (k0_pay98 (k0_pay54 (k0_pay8 v3) (k0_pay12 v3))) (k0_pay99 (k0_pay55 (k0_pay9 v3))) (k0_pay100 (k0_pay56 (k0_pay9 v3) (k0_pay10 v3))) (k0_pay101 (k0_pay57 (k0_pay9 v3) (k0_pay11 v3))) (k0_pay102 (k0_pay58 (k0_pay9 v3) (k0_pay12 v3))) (k0_pay103 (k0_pay59 (k0_pay10 v3))) (k0_pay104 (k0_pay60 (k0_pay10 v3) (k0_pay11 v3))) (k0_pay105 (k0_pay61 (k0_pay10 v3)) (k0_pay62 (k0_pay12 v3))) (k0_pay106 (k0_pay11 v3)) (k0_pay107 (k0_pay11 v3) (k0_pay12 v3)) w0 (ix2 o l)
      = 0 + ∑ k : Fin 45, w0 (ix2 o k) * (pw v3 0 (pairA k) l * pw v3 0 (pairB k) l) := by
  unfold k0_pay108
  simp only [acc0_apply, addf_apply, mm_apply, stack_apply]
  refine congrArg (0 + ·) (Finset.sum_congr rfl fun k hk => congrArg (w0 (ix2 o k) * ·) ?_)
  clear hk
  revert k
  simp only [pairA, pairB, Fin.forall_fin_succ, Matrix.cons_val_zero, Matrix.cons_val_succ]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun i => i.elim0⟩ <;>
    simp only [k0_pay63, k0_pay64, k0_pay14, k0_pay65, k0_pay15, k0_pay66, k0_pay16, k0_pay67, k0_pay17, k0_pay68, k0_pay18, k0_pay69, k0_pay21, k0_pay19, k0_pay20, k0_pay70, k0_pay22, k0_pay71, k0_pay23, k0_pay72, k0_pay24, k0_pay73, k0_pay25, k0_pay74, k0_pay26, k0_pay75, k0_pay27, k0_pay76, k0_pay28, k0_pay77, k0_pay29, k0_pay78, k0_pay30, k0_pay79, k0_pay31, k0_pay80, k0_pay32, k0_pay81, k0_pay35, k0_pay33, k0_pay34, k0_pay82, k0_pay36, k0_pay83, k0_pay37, k0_pay84, k0_pay38, k0_pay85, k0_pay39, k0_pay86, k0_pay40, k0_pay87, k0_pay41, k0_pay88, k0_pay42, k0_pay89, k0_pay43, k0_pay90, k0_pay44, k0_pay91, k0_pay45, k0_pay92, k0_pay46, k0_pay93, k0_pay49, k0_pay47, k0_pay48, k0_pay94, k0_pay50, k0_pay95, k0_pay51, k0_pay96, k0_pay52, k0_pay97, k0_pay53, k0_pay98, k0_pay54, k0_pay99, k0_pay55, k0_pay100, k0_pay56, k0_pay101, k0_pay57, k0_pay102, k0_pay58, k0_pay103, k0_pay59, k0_pay104, k0_pay60, k0_pay105, k0_pay61, k0_pay62, k0_pay106, k0_pay107, toRow_apply, ofRow_apply, row0_apply, row1_apply, row2_apply, mulf_apply, p0_apply, p1_apply, p2_apply, p3_apply, p4_apply, p5_apply, p6_apply, p7_apply, p8_apply]

end Cert.KernelIdeal.Block

end
-- ==== Proof.KBlockChan1.lean ====
/-
  Channel 1 of the block: the product of the channel's weight slice with the stack of its 45 rows, added to the
  accumulator. Row `k` of the stack is the entrywise product of the patches at the two positions of pair `k`, both taken
  in row 1 (the channel) of the flattened patches; so the channel's contribution at `(o, l)` is the sum over the 45
  pairs of the weight times the product of the two window entries the pair's positions read. The rows are checked one
  by one against the table of pairs.
-/
import proofs.«135709_j56427280335471_2_alg».proof.Proof.KBlockRow
import proofs.«135709_j56427280335471_2_alg».proof.Proof.KBlockArith
import proofs.«135709_j56427280335471_2_alg».proof.Proof.Spec

set_option maxRecDepth 16384

noncomputable section

open Idealize.ShloMosaic Idealize.ShloMosaic.ValueIdx
open Cert.KernelIdeal Cert.KernelIdeal.Gen Cert.DeConv

namespace Cert.KernelIdeal.Block

theorem chan1_apply (v3 : Vec Ideal S1x3x66x224 .f32) (acc : FVec Ideal S64x14208 .f32) (w1 : Vec Ideal S64x45 .f32) (o : Fin 64) (l : Fin 14208) :
    k0_pay159 (F := Ideal) acc (k0_pay114 (k0_pay4 v3) (k0_pay9 v3)) (k0_pay115 (k0_pay4 v3) (k0_pay10 v3)) (k0_pay116 (k0_pay4 v3) (k0_pay11 v3)) (k0_pay117 (k0_pay4 v3) (k0_pay12 v3)) (k0_pay118 (k0_pay5 v3)) (k0_pay119 (k0_pay5 v3) (k0_pay6 v3)) (k0_pay120 (k0_pay5 v3) (k0_pay7 v3)) (k0_pay121 (k0_pay5 v3) (k0_pay8 v3)) (k0_pay122 (k0_pay5 v3) (k0_pay9 v3)) (k0_pay123 (k0_pay5 v3) (k0_pay10 v3)) (k0_pay124 (k0_pay5 v3) (k0_pay11 v3)) (k0_pay125 (k0_pay5 v3) (k0_pay12 v3)) (k0_pay126 (k0_pay6 v3)) (k0_pay127 (k0_pay6 v3) (k0_pay7 v3)) (k0_pay128 (k0_pay6 v3) (k0_pay8 v3)) (k0_pay129 (k0_pay6 v3) (k0_pay9 v3)) (k0_pay130 (k0_pay6 v3) (k0_pay10 v3)) (k0_pay131 (k0_pay6 v3) (k0_pay11 v3)) (k0_pay132 (k0_pay6 v3) (k0_pay12 v3)) (k0_pay133 (k0_pay7 v3)) (k0_pay134 (k0_pay7 v3) (k0_pay8 v3)) (k0_pay135 (k0_pay7 v3) (k0_pay9 v3)) (k0_pay136 (k0_pay7 v3) (k0_pay10 v3)) (k0_pay137 (k0_pay7 v3) (k0_pay11 v3)) (k0_pay138 (k0_pay7 v3) (k0_pay12 v3)) (k0_pay139 (k0_pay8 v3)) (k0_pay140 (k0_pay8 v3) (k0_pay9 v3)) (k0_pay141 (k0_pay8 v3) (k0_pay10 v3)) (k0_pay142 (k0_pay8 v3) (k0_pay11 v3)) (k0_pay143 (k0_pay8 v3) (k0_pay12 v3)) (k0_pay144 (k0_pay9 v3)) (k0_pay145 (k0_pay9 v3) (k0_pay10 v3)) (k0_pay146 (k0_pay9 v3) (k0_pay11 v3)) (k0_pay147 (k0_pay9 v3) (k0_pay12 v3)) (k0_pay148 (k0_pay10 v3)) (k0_pay149 (k0_pay10 v3) (k0_pay11 v3)) (k0_pay150 (k0_pay10 v3) (k0_pay12 v3)) (k0_pay151 (k0_pay11 v3)) (k0_pay152 (k0_pay11 v3) (k0_pay12 v3)) (k0_pay153 (k0_pay12 v3)) (k0_pay154 (k0_pay109 (k0_pay4 v3))) (k0_pay155 (k0_pay110 (k0_pay4 v3) (k0_pay5 v3))) (k0_pay156 (k0_pay111 (k0_pay4 v3) (k0_pay6 v3))) (k0_pay157 (k0_pay112 (k0_pay4 v3) (k0_pay7 v3))) (k0_pay158 (k0_pay113 (k0_pay4 v3) (k0_pay8 v3))) w1 (ix2 o l)
      = acc (ix2 o l) + ∑ k : Fin 45, w1 (ix2 o k) * (pw v3 1 (pairA k) l * pw v3 1 (pairB k) l) := by
  unfold k0_pay159
  simp only [addf_apply, mm_apply, stack_apply]
  refine congrArg (acc (ix2 o l) + ·) (Finset.sum_congr rfl fun k hk => congrArg (w1 (ix2 o k) * ·) ?_)
  clear hk
  revert k
  simp only [pairA, pairB, Fin.forall_fin_succ, Matrix.cons_val_zero, Matrix.cons_val_succ]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun i => i.elim0⟩ <;>
    simp only [k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay109, k0_pay155, k0_pay110, k0_pay156, k0_pay111, k0_pay157, k0_pay112, k0_pay158, k0_pay113, toRow_apply, ofRow_apply, row0_apply, row1_apply, row2_apply, mulf_apply, p0_apply, p1_apply, p2_apply, p3_apply, p4_apply, p5_apply, p6_apply, p7_apply, p8_apply]

end Cert.KernelIdeal.Block

end
-- ==== Proof.KBlockChan2.lean ====
/-
  Channel 2 of the block: the product of the channel's weight slice with the stack of its 45 rows, added to the
  accumulator. Row `k` of the stack is the entrywise product of the patches at the two positions of pair `k`, both taken
  in row 2 (the channel) of the flattened patches; so the channel's contribution at `(o, l)` is the sum over the 45
  pairs of the weight times the product of the two window entries the pair's positions read. The rows are checked one
  by one against the table of pairs.
-/
import proofs.«135709_j56427280335471_2_alg».proof.Proof.KBlockRow
import proofs.«135709_j56427280335471_2_alg».proof.Proof.KBlockArith
import proofs.«135709_j56427280335471_2_alg».proof.Proof.Spec

set_option maxRecDepth 16384

noncomputable section

open Idealize.ShloMosaic Idealize.ShloMosaic.ValueIdx
open Cert.KernelIdeal Cert.KernelIdeal.Gen Cert.DeConv

namespace Cert.KernelIdeal.Block

theorem chan2_apply (v3 : Vec Ideal S1x3x66x224 .f32) (acc : FVec Ideal S64x14208 .f32) (w2 : Vec Ideal S64x45 .f32) (o : Fin 64) (l : Fin 14208) :
    k0_pay2 (F := Ideal) acc (k0_pay1 (k0_pay189 (k0_pay9 v3) (k0_pay188 (k0_pay7 v3))) (k0_pay190 (k0_pay7 v3) (k0_pay10 v3)) (k0_pay191 (k0_pay7 v3) (k0_pay11 v3)) (k0_pay192 (k0_pay7 v3) (k0_pay12 v3)) (k0_pay193 (k0_pay8 v3)) (k0_pay194 (k0_pay8 v3) (k0_pay9 v3)) (k0_pay195 (k0_pay8 v3) (k0_pay10 v3)) (k0_pay196 (k0_pay8 v3) (k0_pay11 v3)) (k0_pay197 (k0_pay8 v3) (k0_pay12 v3)) (k0_pay198 (k0_pay9 v3)) (k0_pay199 (k0_pay9 v3) (k0_pay10 v3)) (k0_pay200 (k0_pay9 v3) (k0_pay11 v3)) (k0_pay202 (k0_pay12 v3) (k0_pay201 (k0_pay9 v3))) (k0_pay203 (k0_pay10 v3)) (k0_pay204 (k0_pay10 v3) (k0_pay11 v3)) (k0_pay205 (k0_pay10 v3) (k0_pay12 v3)) (k0_pay206 (k0_pay11 v3)) (k0_pay207 (k0_pay11 v3) (k0_pay12 v3)) (k0_pay208 (k0_pay12 v3)) (k0_pay209 (k0_pay160 (k0_pay4 v3))) (k0_pay210 (k0_pay161 (k0_pay4 v3) (k0_pay5 v3))) (k0_pay211 (k0_pay163 (k0_pay6 v3) (k0_pay162 (k0_pay4 v3)))) (k0_pay212 (k0_pay164 (k0_pay4 v3) (k0_pay7 v3))) (k0_pay213 (k0_pay165 (k0_pay4 v3) (k0_pay8 v3))) (k0_pay214 (k0_pay166 (k0_pay4 v3) (k0_pay9 v3))) (k0_pay215 (k0_pay167 (k0_pay4 v3) (k0_pay10 v3))) (k0_pay216 (k0_pay168 (k0_pay4 v3) (k0_pay11 v3))) (k0_pay217 (k0_pay169 (k0_pay4 v3) (k0_pay12 v3))) (k0_pay218 (k0_pay170 (k0_pay5 v3))) (k0_pay219 (k0_pay171 (k0_pay5 v3) (k0_pay6 v3))) (k0_pay220 (k0_pay172 (k0_pay5 v3) (k0_pay7 v3))) (k0_pay221 (k0_pay173 (k0_pay5 v3) (k0_pay8 v3))) (k0_pay222 (k0_pay174 (k0_pay5 v3) (k0_pay9 v3))) (k0_pay223 (k0_pay176 (k0_pay10 v3) (k0_pay175 (k0_pay5 v3)))) (k0_pay224 (k0_pay177 (k0_pay5 v3) (k0_pay11 v3))) (k0_pay225 (k0_pay178 (k0_pay5 v3) (k0_pay12 v3))) (k0_pay226 (k0_pay179 (k0_pay6 v3))) (k0_pay227 (k0_pay180 (k0_pay6 v3) (k0_pay7 v3))) (k0_pay228 (k0_pay181 (k0_pay6 v3) (k0_pay8 v3))) (k0_pay229 (k0_pay182 (k0_pay6 v3) (k0_pay9 v3))) (k0_pay230 (k0_pay183 (k0_pay6 v3) (k0_pay10 v3))) (k0_pay231 (k0_pay184 (k0_pay6 v3) (k0_pay11 v3))) (k0_pay232 (k0_pay185 (k0_pay6 v3) (k0_pay12 v3))) (k0_pay233 (k0_pay186 (k0_pay7 v3))) (k0_pay234 (k0_pay187 (k0_pay7 v3) (k0_pay8 v3)))) w2 (ix3 (0 : Fin 1) o l)
      = acc (ix2 o l) + ∑ k : Fin 45, w2 (ix2 o k) * (pw v3 2 (pairA k) l * pw v3 2 (pairB k) l) := by
  unfold k0_pay2 k0_pay1
  simp only [blk_apply, addf_apply, mm_apply, stack_apply]
  refine congrArg (acc (ix2 o l) + ·) (Finset.sum_congr rfl fun k hk => congrArg (w2 (ix2 o k) * ·) ?_)
  clear hk
  revert k
  simp only [pairA, pairB, Fin.forall_fin_succ, Matrix.cons_val_zero, Matrix.cons_val_succ]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun i => i.elim0⟩ <;>
    simp only [k0_pay189, k0_pay188, k0_pay190, k0_pay191, k0_pay192, k0_pay193, k0_pay194, k0_pay195, k0_pay196, k0_pay197, k0_pay198, k0_pay199, k0_pay200, k0_pay202, k0_pay201, k0_pay203, k0_pay204, k0_pay205, k0_pay206, k0_pay207, k0_pay208, k0_pay209, k0_pay160, k0_pay210, k0_pay161, k0_pay211, k0_pay163, k0_pay162, k0_pay212, k0_pay164, k0_pay213, k0_pay165, k0_pay214, k0_pay166, k0_pay215, k0_pay167, k0_pay216, k0_pay168, k0_pay217, k0_pay169, k0_pay218, k0_pay170, k0_pay219, k0_pay171, k0_pay220, k0_pay172, k0_pay221, k0_pay173, k0_pay222, k0_pay174, k0_pay223, k0_pay176, k0_pay175, k0_pay224, k0_pay177, k0_pay225, k0_pay178, k0_pay226, k0_pay179, k0_pay227, k0_pay180, k0_pay228, k0_pay181, k0_pay229, k0_pay182, k0_pay230, k0_pay183, k0_pay231, k0_pay184, k0_pay232, k0_pay185, k0_pay233, k0_pay186, k0_pay234, k0_pay187, toRow_apply, ofRow_apply, row0_apply, row1_apply, row2_apply, mulf_apply, p0_apply, p1_apply, p2_apply, p3_apply, p4_apply, p5_apply, p6_apply, p7_apply, p8_apply]

end Cert.KernelIdeal.Block

end
-- ==== Proof.KBlockOut.lean ====
/-
  The block the kernel body leaves, entry by entry. The stored value is the accumulation `((0 + S₀) + S₁) + S₂` of the
  three channels' contributions, `S_c` the sum over the 45 pairs of the weight `w[o, 45·c + k]` times the product of the
  two window entries pair `k` reads in channel `c`; the window was loaded from rows `64·(i 1) ..` of the staged image,
  so its entry `(c, r, s)` is the image's `(c, 64·(i 1) + r, s)`, and the weight slices from columns `45·c ..`.
  Over the extended reals the accumulation is the double sum over channels and pairs.
-/
import proofs.«135709_j56427280335471_2_alg».proof.Proof.KBlockVal
import proofs.«135709_j56427280335471_2_alg».proof.Proof.KBlockChan0
import proofs.«135709_j56427280335471_2_alg».proof.Proof.KBlockChan1
import proofs.«135709_j56427280335471_2_alg».proof.Proof.KBlockChan2

set_option maxRecDepth 16384

noncomputable section

open Idealize.ShloMosaic Idealize.ShloMosaic.TcCoe Idealize.SL.Sem
open Cert.KernelIdeal Cert.KernelIdeal.Gen Cert.DeConv Idealize.ShloMosaic.ValueIdx

namespace Cert.KernelIdeal.Block

/-- The stored block at `(0, o, l)` over the loaded values: the three channels accumulated in order. -/
theorem blockVal_apply (v3 : Vec Ideal S1x3x66x224 .f32) (w0 w1 w2 : Vec Ideal S64x45 .f32) (o : Fin 64) (l : Fin 14208) :
    blockVal (F := Ideal) v3 w0 w1 w2 (ix3 (0 : Fin 1) o l)
      = ((0 + ∑ k : Fin 45, w0 (ix2 o k) * (pw v3 0 (pairA k) l * pw v3 0 (pairB k) l))
          + ∑ k : Fin 45, w1 (ix2 o k) * (pw v3 1 (pairA k) l * pw v3 1 (pairB k) l))
          + ∑ k : Fin 45, w2 (ix2 o k) * (pw v3 2 (pairA k) l * pw v3 2 (pairB k) l) := by
  unfold blockVal
  refine (chan2_apply v3 _ w2 o l).trans (congrArg (· + _) ?_)
  refine (chan1_apply v3 _ w1 o l).trans (congrArg (· + _) ?_)
  exact chan0_apply v3 w0 o l

/-- A window entry is the staged image's entry `64 · (i 1)` rows further down. -/
theorem pw_ld (i : grid0.Coords) (hi : (i 1).val < 4) (x0 : Vec Ideal S1x3x258x224 .f32) (c : Fin 3) (p : Fin 9) (l : Fin 14208) :
    pw (View.ld x0 (Rect.unit (s := S1x3x258x224) (k0_off1 i) S1x3x66x224.size (k0_off1_inb i))) c p l
      = x0 (ix4 (0 : Fin 1) c (winRow (i 1).val hi l p) (winCol l p)) := by
  unfold pw
  refine (ldWin_apply x0 (k0_off1 i) (k0_off1_inb i) (64 * (i 1).val) (k0_off1_eq i) c _ _ (winRow (i 1).val hi l p) ?_).trans ?_
  · show 64 * (i 1).val + l.val / 222 + p.val / 3 = 64 * (i 1).val + (l.val / 222 + p.val / 3)
    omega
  · rfl

/-- A weight-slice entry is the weight of feature `45 · c + k`. -/
theorem w_ld (x1 : Vec Ideal S64x135 .f32) (c : Fin 3) (n : Nat) (hn : n = 45 * c.val)
    (inb : ∀ a, (![0, n] : Fin 2 → Nat) a + S64x45.size a ≤ S64x135.size a) (o : Fin 64) (k : Fin 45) :
    View.ld x1 (Rect.unit (s := S64x135) ![0, n] S64x45.size inb) (ix2 o k) = x1 (ix2 o (featIdx c k)) :=
  ldW_apply x1 n inb o k (featIdx c k) (by show 45 * c.val + k.val = n + k.val; omega)

/-- The block the body leaves at `(0, o, l)`: the sum over channels and pairs of the weight times the product of the two
    entries of the staged image that the pair's positions read. -/
theorem out_apply (c : Dev nD) (i : grid0.Coords) (hi : (i 1).val < 4)
    (arg2 : Memref sig .tc .vmem S1x3x258x224 .f32) (harg2 : arg2.IsWhole) (arg3 : Memref sig .tc .vmem S64x135 .f32) (harg3 : arg3.IsWhole)
    (arg4 : Memref sig .tc .vmem S1x64x14208 .f32) (harg4 : arg4.IsWhole)
    (x0 : Vec Ideal S1x3x258x224 .f32) (x1 : Vec Ideal S64x135 .f32) (o : Fin 64) (l : Fin 14208) :
    Gen.out0_A_2 (F := Ideal) c i arg2 harg2 arg3 harg3 arg4 harg4 x0 x1 (ix3 0 o l)
      = ∑ c' : Fin 3, ∑ k : Fin 45, x1 (ix2 o (featIdx c' k)) *
          (x0 (ix4 0 c' (winRow (i 1).val hi l (pairA k)) (winCol l (pairA k))) *
           x0 (ix4 0 c' (winRow (i 1).val hi l (pairB k)) (winCol l (pairB k)))) := by
  rw [out_eq, blockVal_apply, Fin.sum_univ_three, zero_add]
  refine congrArg₂ (· + ·) (congrArg₂ (· + ·) ?_ ?_) ?_
  · refine Finset.sum_congr rfl fun k _ => ?_
    rw [pw_ld i hi, pw_ld i hi, w_ld x1 0 0 rfl]
  · refine Finset.sum_congr rfl fun k _ => ?_
    rw [pw_ld i hi, pw_ld i hi, w_ld x1 1 45 rfl]
  · refine Finset.sum_congr rfl fun k _ => ?_
    rw [pw_ld i hi, pw_ld i hi, w_ld x1 2 90 rfl]

end Cert.KernelIdeal.Block

end
-- ==== Proof.KFinal.lean ====
/-
  The array the region leaves and the program's result.

  What a point writes back is its tile of ONE function of the arguments: entry `(b, o, L)` of the flat output array
  `[16, 64, 49284]` is the specification's value at batch `b`, channel `o` and window origin `(L / 222, L % 222)`. The
  tile of point `t` holds, at `(o, l)`, the body's sum over the staged window of batch entry `t / 4` at tile row
  `l / 222` of row tile `t % 4`; with `L = 14208 · (t % 4) + l` and `14208 = 64 · 222` the rows `64 · (t % 4) + l / 222`
  and `L / 222` agree, and so do the columns `l % 222` and `L % 222`. The tiles cover the array, so the array after the
  region is that function; the reshape after the region reads entry `(b, o, h, v)` at `L = 222 · h + v`.
-/
import proofs.«135709_j56427280335471_2_alg».proof.Proof.KWindow
import proofs.«135709_j56427280335471_2_alg».proof.Proof.KBlockOut

noncomputable section

namespace Cert.KernelIdeal.ArrayValue

open Cert.KernelIdeal Cert.KernelIdeal.Gen Cert.KernelIdeal.Block Cert.DeConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The flat output array as one function of the arguments. -/
def flat (x : S16x3x224x224.Idx → EReal) (w : S64x135.Idx → EReal) : S16x64x49284.Idx → EReal :=
  fun j => val x w (j 0) (j 1) ((j 2).val / 222) ((j 2).val % 222)

theorem xAt_congr (x : S16x3x224x224.Idx → EReal) (b : Fin 16) (c : Fin 3) {r r' s s' : Nat} (hr : r = r') (hs : s = s') :
    xAt x b c r s = xAt x b c r' s' := by subst hr; subst hs; rfl

/-- What point `t` writes back is its tile of `flat`. -/
theorem flushed_eq (c : Dev nD) (t : Fin cfg0.N) :
    (dats m 0 c).flushed 2 t = ((cfg0.win 2).blk t).view.read (Elt Ideal)
      (flat (m ((c : Thread nD τ).loc main_arg0)) (m ((c : Thread nD τ).loc main_arg1))) := by
  show (cfg0.win 2).cut (grid0.coords t) ((dats m 0 c).after 2 t) = _
  rw [after0_2]
  funext y
  obtain ⟨g1, -, -, -, -, -, -, e0, e1, e2, x0, x1, x2⟩ := point_facts t
  have hN : cfg0.N = 64 := N_0
  have ht := t.isLt
  have y0 : (y 0).val < win0_2.xsize (grid0.coords t) (0 : Fin 3) := (y 0).isLt
  have y1 : (y 1).val < win0_2.xsize (grid0.coords t) (1 : Fin 3) := (y 1).isLt
  have y2 : (y 2).val < win0_2.xsize (grid0.coords t) (2 : Fin 3) := (y 2).isLt
  have y2' : (y 2).val < 14208 ∧ 14208 * (t.val % 4) + (y 2).val < 49284 := by
    by_cases h3 : t.val % 4 = 3
    · rw [if_pos h3] at x2; omega
    · rw [if_neg h3] at x2; omega
  have hb : t.val / 4 < 16 := by omega
  have ho : (y 1).val < 64 := by omega
  have hx : (cfg0.win 2).xinj (grid0.coords t) y = ix3 (0 : Fin 1) (⟨(y 1).val, ho⟩ : Fin 64) (⟨(y 2).val, y2'.1⟩ : Fin 14208) :=
    funext fun a => Fin.ext (by
      match a with
      | ⟨0, _⟩ => show (y 0).val = 0; omega
      | ⟨1, _⟩ => rfl
      | ⟨2, _⟩ => rfl)
  have he : ((cfg0.win 2).blk t).view.emb y
      = ix3 (⟨t.val / 4, hb⟩ : Fin 16) (⟨(y 1).val, ho⟩ : Fin 64) (⟨14208 * (t.val % 4) + (y 2).val, y2'.2⟩ : Fin 49284) :=
    funext fun a => Fin.ext (by
      match a with
      | ⟨0, _⟩ => show win0_2.index t (0 : Fin 3) * 1 + 1 * (y 0).val = t.val / 4; omega
      | ⟨1, _⟩ => show win0_2.index t (1 : Fin 3) * 64 + 1 * (y 1).val = (y 1).val; omega
      | ⟨2, _⟩ => show win0_2.index t (2 : Fin 3) * 14208 + 1 * (y 2).val = 14208 * (t.val % 4) + (y 2).val; omega)
  show outsAt0 m c t ((cfg0.win 2).xinj (grid0.coords t) y) = flat _ _ (((cfg0.win 2).blk t).view.emb y)
  rw [hx, he]
  unfold outsAt0
  rw [out_apply c (grid0.coords t) (by omega : ((grid0.coords t) 1).val < 4)]
  unfold flat val
  refine Finset.sum_congr rfl fun c' _ => Finset.sum_congr rfl fun k _ => ?_
  rw [weight_block m c t, image_block m c t hb, image_block m c t hb]
  unfold term
  refine congrArg₂ (· * ·) rfl (congrArg₂ (· * ·) (xAt_congr _ _ _ ?_ ?_) (xAt_congr _ _ _ ?_ ?_))
  · show 64 * ((grid0.coords t) 1).val + (y 2).val / 222 + (pairA k).val / 3 = (14208 * (t.val % 4) + (y 2).val) / 222 + (pairA k).val / 3
    omega
  · show (y 2).val % 222 + (pairA k).val % 3 = (14208 * (t.val % 4) + (y 2).val) % 222 + (pairA k).val % 3
    omega
  · show 64 * ((grid0.coords t) 1).val + (y 2).val / 222 + (pairB k).val / 3 = (14208 * (t.val % 4) + (y 2).val) / 222 + (pairB k).val / 3
    omega
  · show (y 2).val % 222 + (pairB k).val % 3 = (14208 * (t.val % 4) + (y 2).val) % 222 + (pairB k).val % 3
    omega

/-- The output array after the region. -/
theorem final (c : Dev nD) :
    (dats m 0 c).arrAt 2 cfg0.N = flat (m ((c : Thread nD τ).loc main_arg0)) (m ((c : Thread nD τ).loc main_arg1)) :=
  (dats m 0 c).arrAt_eq_of_cover 2 _ (fun t _ => flushed_eq m c t) tiles_cover

/-- The program's result: the reshape of the output array, entry `(b, o, h, v)` read at `222 · h + v`. -/
theorem result (c : Dev nD) :
    (Pipeline.afterTail₀ cfgs (dats m) 0 (V0 m) [hostOps1] c main_v2 : S16x64x222x222.Idx → EReal)
      = G (m ((c : Thread nD τ).loc main_arg0)) (m ((c : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1)
      = flat (m ((c : Thread nD τ).loc main_arg0)) (m ((c : Thread nD τ).loc main_arg1)) from
    (Pipeline.withArrays_arr spec0 launch0.win.arr_inj c _ _ 2).trans (final m c)]
  funext j
  obtain ⟨b, o, h, v, rfl⟩ : ∃ (b : Fin 16) (o : Fin 64) (h v : Fin 222), j = ix4 b o h v := ⟨j 0, j 1, j 2, j 3, eq_ix4 j⟩
  show shapeCast S16x64x222x222 (flat _ _) Facts₀.shapeCasts_S16x64x49284_S16x64x222x222 (ix4 b o h v) = _
  rw [shapeCast_apply _ _ (ix4 b o h v) (ix3 b o (⟨222 * h.val + v.val, by omega⟩ : Fin 49284)) (by
    rw [Shape.rowMajor_val_three, Shape.rowMajor_val_four]
    show (b.val * 64 + o.val) * 49284 + (222 * h.val + v.val) = ((b.val * 64 + o.val) * 222 + h.val) * 222 + v.val
    ring)]
  show val _ _ b o ((222 * h.val + v.val) / 222) ((222 * h.val + v.val) % 222) = val _ _ b o h.val v.val
  have hv := v.isLt
  rw [show (222 * h.val + v.val) / 222 = h.val by omega, show (222 * h.val + v.val) % 222 = v.val by omega]

/-- The program's run: every weakly fair execution ends with the result array at the specification and the
    arguments as launched. -/
theorem run : θ_run defs (onTc (τ := τ) (main (F := Ideal))) ⟨m, fun _ => 0, ρ⟩ fun r => ∀ c : Dev nD,
      r.2.mem ((c.tc : Thread nD τ).loc main_v2) = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.ArrayValue

end
-- ==== Proof.RefTerm.lean ====
/-
  The reference's result as a term: each stage of the straight-line program as a function of its operands, composed
  in program order. The image's nine shifted 222 × 222 windows are stacked along a new axis, moved last and flattened
  to one row per window origin; the two columns of the table of position pairs select, for each pair, the two window
  entries that are multiplied; the 3 × 45 products of a row are flattened to 135 features and contracted with the
  weights; the result is moved to batch-major order and unflattened to the 222 × 222 grid of window origins.
-/
import proofs.«135709_j56427280335471_2_alg».proof.ReferenceIdeal
import proofs.«135709_j56427280335471_2_alg».proof.Proof.Gen.ReferenceIdeal

noncomputable section

namespace Cert.ReferenceIdeal.RefValue

open Idealize.ShloMosaic Idealize.SL.Sem
open Cert.ReferenceIdeal Cert.ReferenceIdeal.Facts₀

variable {F : FTy → Type} [FloatOps F]

/-- The table of position pairs: row `k` holds the two positions of pair `k`. -/
def pairTable : (⟨S45x2, .i32⟩ : BufTy).Contents (Elt F) := fun i => lit0 (S45x2.rowMajor i)

/-- The window of the image shifted by 0 rows and 0 columns. -/
def win0 (x : (⟨S16x3x224x224, .f32⟩ : BufTy).Contents (Elt F)) : (⟨S16x3x222x222, .f32⟩ : BufTy).Contents (Elt F) :=
  extractStridedSlice S16x3x222x222 ![0, 0, 0, 0] x slices_S16x3x224x224_S16x3x222x222_0_0_0_0
/-- The window shifted by 0 rows and 1 column. -/
def win1 (x : (⟨S16x3x224x224, .f32⟩ : BufTy).Contents (Elt F)) : (⟨S16x3x222x222, .f32⟩ : BufTy).Contents (Elt F) :=
  extractStridedSlice S16x3x222x222 ![0, 0, 0, 1] x slices_S16x3x224x224_S16x3x222x222_0_0_0_1
/-- The window shifted by 0 rows and 2 columns. -/
def win2 (x : (⟨S16x3x224x224, .f32⟩ : BufTy).Contents (Elt F)) : (⟨S16x3x222x222, .f32⟩ : BufTy).Contents (Elt F) :=
  extractStridedSlice S16x3x222x222 ![0, 0, 0, 2] x slices_S16x3x224x224_S16x3x222x222_0_0_0_2
/-- The window shifted by 1 row and 0 columns. -/
def win3 (x : (⟨S16x3x224x224, .f32⟩ : BufTy).Contents (Elt F)) : (⟨S16x3x222x222, .f32⟩ : BufTy).Contents (Elt F) :=
  extractStridedSlice S16x3x222x222 ![0, 0, 1, 0] x slices_S16x3x224x224_S16x3x222x222_0_0_1_0
/-- The window shifted by 1 row and 1 column. -/
def win4 (x : (⟨S16x3x224x224, .f32⟩ : BufTy).Contents (Elt F)) : (⟨S16x3x222x222, .f32⟩ : BufTy).Contents (Elt F) :=
  extractStridedSlice S16x3x222x222 ![0, 0, 1, 1] x slices_S16x3x224x224_S16x3x222x222_0_0_1_1
/-- The window shifted by 1 row and 2 columns. -/
def win5 (x : (⟨S16x3x224x224, .f32⟩ : BufTy).Contents (Elt F)) : (⟨S16x3x222x222, .f32⟩ : BufTy).Contents (Elt F) :=
  extractStridedSlice S16x3x222x222 ![0, 0, 1, 2] x slices_S16x3x224x224_S16x3x222x222_0_0_1_2
/-- The window shifted by 2 rows and 0 columns. -/
def win6 (x : (⟨S16x3x224x224, .f32⟩ : BufTy).Contents (Elt F)) : (⟨S16x3x222x222, .f32⟩ : BufTy).Contents (Elt F) :=
  extractStridedSlice S16x3x222x222 ![0, 0, 2, 0] x slices_S16x3x224x224_S16x3x222x222_0_0_2_0
/-- The window shifted by 2 rows and 1 column. -/
def win7 (x : (⟨S16x3x224x224, .f32⟩ : BufTy).Contents (Elt F)) : (⟨S16x3x222x222, .f32⟩ : BufTy).Contents (Elt F) :=
  extractStridedSlice S16x3x222x222 ![0, 0, 2, 1] x slices_S16x3x224x224_S16x3x222x222_0_0_2_1
/-- The window shifted by 2 rows and 2 columns. -/
def win8 (x : (⟨S16x3x224x224, .f32⟩ : BufTy).Contents (Elt F)) : (⟨S16x3x222x222, .f32⟩ : BufTy).Contents (Elt F) :=
  extractStridedSlice S16x3x222x222 ![0, 0, 2, 2] x slices_S16x3x224x224_S16x3x222x222_0_0_2_2

/-- A window with a unit axis inserted at place 2. -/
def lift (y : (⟨S16x3x222x222, .f32⟩ : BufTy).Contents (Elt F)) : (⟨S16x3x1x222x222, .f32⟩ : BufTy).Contents (Elt F) :=
  broadcastInDim S16x3x1x222x222 ![0, 1, 3, 4] bcast_S16x3x222x222_S16x3x1x222x222_0_1_3_4 y

/-- The nine windows stacked along axis 2. -/
def stack (x : (⟨S16x3x224x224, .f32⟩ : BufTy).Contents (Elt F)) : (⟨S16x3x9x222x222, .f32⟩ : BufTy).Contents (Elt F) :=
  concatenate S16x3x9x222x222 2 [⟨S16x3x1x222x222, lift (win0 x)⟩, ⟨S16x3x1x222x222, lift (win1 x)⟩,
    ⟨S16x3x1x222x222, lift (win2 x)⟩, ⟨S16x3x1x222x222, lift (win3 x)⟩, ⟨S16x3x1x222x222, lift (win4 x)⟩,
    ⟨S16x3x1x222x222, lift (win5 x)⟩, ⟨S16x3x1x222x222, lift (win6 x)⟩, ⟨S16x3x1x222x222, lift (win7 x)⟩,
    ⟨S16x3x1x222x222, lift (win8 x)⟩]
    concatenates_S16x3x1x222x222_S16x3x1x222x222_S16x3x1x222x222_S16x3x1x222x222_S16x3x1x222x222_S16x3x1x222x222_S16x3x1x222x222_S16x3x1x222x222_S16x3x1x222x222_S16x3x9x222x222_d2

/-- The stack with the window origin's two axes before the channel and the position. -/
def stackT (x : (⟨S16x3x224x224, .f32⟩ : BufTy).Contents (Elt F)) : (⟨S16x222x222x3x9, .f32⟩ : BufTy).Contents (Elt F) :=
  transpose S16x222x222x3x9 [0, 3, 4, 1, 2] (stack x) transposes_S16x3x9x222x222_S16x222x222x3x9_0_3_4_1_2

/-- The patches: one row of 3 × 9 entries per batch entry and window origin. -/
def patches (x : (⟨S16x3x224x224, .f32⟩ : BufTy).Contents (Elt F)) : (⟨S16x49284x3x9, .f32⟩ : BufTy).Contents (Elt F) :=
  fun i => shapeCast S16x49284x3x9 (stackT x) shapeCasts_S16x222x222x3x9_S16x49284x3x9 i

/-- Column 0 of the table of pairs. -/
def colA0 : (⟨S45x1, .i32⟩ : BufTy).Contents (Elt F) :=
  extractStridedSlice S45x1 ![0, 0] (pairTable (F := F)) slices_S45x2_S45x1_0_0
/-- Column 1 of the table of pairs. -/
def colB0 : (⟨S45x1, .i32⟩ : BufTy).Contents (Elt F) :=
  extractStridedSlice S45x1 ![0, 1] (pairTable (F := F)) slices_S45x2_S45x1_0_1

/-- A column as a vector of 45 words. -/
def flat (c : (⟨S45x1, .i32⟩ : BufTy).Contents (Elt F)) : (⟨S45, .i32⟩ : BufTy).Contents (Elt F) :=
  fun i => shapeCast S45 c shapeCasts_S45x1_S45 i

/-- The splat of 0. -/
def zeros : (⟨S45, .i32⟩ : BufTy).Contents (Elt F) :=
  broadcastInDim S45 ![] bcast_S_S45 ((constantI S_ 32 0#32 : (⟨S_, .i32⟩ : BufTy).Contents (Elt F)))
/-- The splat of 9. -/
def nines : (⟨S45, .i32⟩ : BufTy).Contents (Elt F) :=
  broadcastInDim S45 ![] bcast_S_S45 ((constantI S_ 32 9#32 : (⟨S_, .i32⟩ : BufTy).Contents (Elt F)))

/-- A vector of positions with a negative one counted from the end: `p + 9` where `p < 0`, else `p`. -/
def wrap (c : (⟨S45, .i32⟩ : BufTy).Contents (Elt F)) : (⟨S45, .i32⟩ : BufTy).Contents (Elt F) :=
  select (cmpi .slt c (zeros (F := F)) : (⟨S45, .i1⟩ : BufTy).Contents (Elt F)) (addi c (nines (F := F))) c

/-- The wrapped positions as a column of start indices. -/
def starts (c : (⟨S45, .i32⟩ : BufTy).Contents (Elt F)) : (⟨S45x1, .i32⟩ : BufTy).Contents (Elt F) :=
  broadcastInDim S45x1 ![0] bcast_S45_S45x1_0 c

/-- The start indices of the first positions of the pairs. -/
def idxA : (⟨S45x1, .i32⟩ : BufTy).Contents (Elt F) := starts (wrap (flat (colA0 (F := F))))
/-- The start indices of the second positions of the pairs. -/
def idxB : (⟨S45x1, .i32⟩ : BufTy).Contents (Elt F) := starts (wrap (flat (colB0 (F := F))))

/-- The patches' entries at the given positions, one per pair. -/
def pick (p : (⟨S16x49284x3x9, .f32⟩ : BufTy).Contents (Elt F)) (i : (⟨S45x1, .i32⟩ : BufTy).Contents (Elt F)) :
    (⟨S16x49284x3x45, .f32⟩ : BufTy).Contents (Elt F) :=
  Host.gather gather_S16x49284x3x9_S45x1_S16x49284x3x45_012_3_n_n_3_1_164928431 p i

/-- The products of the two entries of each pair. -/
def prods (x : (⟨S16x3x224x224, .f32⟩ : BufTy).Contents (Elt F)) : (⟨S16x49284x3x45, .f32⟩ : BufTy).Contents (Elt F) :=
  mulf (pick (patches x) (idxA (F := F))) (pick (patches x) (idxB (F := F)))

/-- The products of a row flattened to its 135 features. -/
def feats (x : (⟨S16x3x224x224, .f32⟩ : BufTy).Contents (Elt F)) : (⟨S16x49284x135, .f32⟩ : BufTy).Contents (Elt F) :=
  fun i => shapeCast S16x49284x135 (prods x) shapeCasts_S16x49284x3x45_S16x49284x135 i

/-- The weights contracted with the features. -/
def dotted (x : (⟨S16x3x224x224, .f32⟩ : BufTy).Contents (Elt F)) (w : (⟨S64x135, .f32⟩ : BufTy).Contents (Elt F)) :
    (⟨S64x16x49284, .f32⟩ : BufTy).Contents (Elt F) :=
  Host.dotGeneral dot_S64x135_S16x49284x135_S64x16x49284_1_2_0_01_n_n none w (feats x)

/-- The same in batch-major order. -/
def dottedT (x : (⟨S16x3x224x224, .f32⟩ : BufTy).Contents (Elt F)) (w : (⟨S64x135, .f32⟩ : BufTy).Contents (Elt F)) :
    (⟨S16x64x49284, .f32⟩ : BufTy).Contents (Elt F) :=
  transpose S16x64x49284 [1, 0, 2] (dotted x w) transposes_S64x16x49284_S16x64x49284_1_0_2

/-- The reference's result. -/
def refOut (x : (⟨S16x3x224x224, .f32⟩ : BufTy).Contents (Elt F)) (w : (⟨S64x135, .f32⟩ : BufTy).Contents (Elt F)) :
    (⟨S16x64x222x222, .f32⟩ : BufTy).Contents (Elt F) :=
  fun i => shapeCast S16x64x222x222 (dottedT x w) shapeCasts_S16x64x49284_S16x64x222x222 i

end Cert.ReferenceIdeal.RefValue

end
-- ==== Proof.RefRun.lean ====
/-
  The reference program's run.

  The reference's @main is a straight line of 49 host operations: nine shifted 222 × 222 slices of the image, each
  given a unit axis and the nine concatenated along it, a transposition and a flattening that put the window position
  last, two gathers of that array along the window position by the first and the second entries of the 45 position
  pairs, the product of the two gathered arrays, the flattening of (channel, pair) into the 135 features, the
  contraction with the weights over the features, and a transposition and a reshaping of the result to
  [16, 64, 222, 222]. Here the program is restated as the LIST of its operations, in order and with exactly the
  functions the program applies, and its run is read back: every weakly fair execution terminates with the result
  buffer holding the composition of those functions applied to the two arguments' launch contents, and the
  arguments unchanged.
-/
import proofs.«135709_j56427280335471_2_alg».proof.Proof.Gen.ReferenceIdeal
import proofs.«135709_j56427280335471_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 49 operations, in order. -/
abbrev ops : List (HloOp τ sig (Elt F)) :=
  [ nullary main_c (fun i => lit0 (S45x2.rowMajor i)),
    unary main_arg0 main_v0 ((extractStridedSlice S16x3x222x222 ![0, 0, 0, 0] · slices_S16x3x224x224_S16x3x222x222_0_0_0_0) : (⟨S16x3x224x224, .f32⟩ : BufTy).Contents (Elt F) → (⟨S16x3x222x222, .f32⟩ : BufTy).Contents (Elt F)),
    unary main_arg0 main_v1 ((extractStridedSlice S16x3x222x222 ![0, 0, 0, 1] · slices_S16x3x224x224_S16x3x222x222_0_0_0_1) : (⟨S16x3x224x224, .f32⟩ : BufTy).Contents (Elt F) → (⟨S16x3x222x222, .f32⟩ : BufTy).Contents (Elt F)),
    unary main_arg0 main_v2 ((extractStridedSlice S16x3x222x222 ![0, 0, 0, 2] · slices_S16x3x224x224_S16x3x222x222_0_0_0_2) : (⟨S16x3x224x224, .f32⟩ : BufTy).Contents (Elt F) → (⟨S16x3x222x222, .f32⟩ : BufTy).Contents (Elt F)),
    unary main_arg0 main_v3 ((extractStridedSlice S16x3x222x222 ![0, 0, 1, 0] · slices_S16x3x224x224_S16x3x222x222_0_0_1_0) : (⟨S16x3x224x224, .f32⟩ : BufTy).Contents (Elt F) → (⟨S16x3x222x222, .f32⟩ : BufTy).Contents (Elt F)),
    unary main_arg0 main_v4 ((extractStridedSlice S16x3x222x222 ![0, 0, 1, 1] · slices_S16x3x224x224_S16x3x222x222_0_0_1_1) : (⟨S16x3x224x224, .f32⟩ : BufTy).Contents (Elt F) → (⟨S16x3x222x222, .f32⟩ : BufTy).Contents (Elt F)),
    unary main_arg0 main_v5 ((extractStridedSlice S16x3x222x222 ![0, 0, 1, 2] · slices_S16x3x224x224_S16x3x222x222_0_0_1_2) : (⟨S16x3x224x224, .f32⟩ : BufTy).Contents (Elt F) → (⟨S16x3x222x222, .f32⟩ : BufTy).Contents (Elt F)),
    unary main_arg0 main_v6 ((extractStridedSlice S16x3x222x222 ![0, 0, 2, 0] · slices_S16x3x224x224_S16x3x222x222_0_0_2_0) : (⟨S16x3x224x224, .f32⟩ : BufTy).Contents (Elt F) → (⟨S16x3x222x222, .f32⟩ : BufTy).Contents (Elt F)),
    unary main_arg0 main_v7 ((extractStridedSlice S16x3x222x222 ![0, 0, 2, 1] · slices_S16x3x224x224_S16x3x222x222_0_0_2_1) : (⟨S16x3x224x224, .f32⟩ : BufTy).Contents (Elt F) → (⟨S16x3x222x222, .f32⟩ : BufTy).Contents (Elt F)),
    unary main_arg0 main_v8 ((extractStridedSlice S16x3x222x222 ![0, 0, 2, 2] · slices_S16x3x224x224_S16x3x222x222_0_0_2_2) : (⟨S16x3x224x224, .f32⟩ : BufTy).Contents (Elt F) → (⟨S16x3x222x222, .f32⟩ : BufTy).Contents (Elt F)),
    unary main_v0 main_v9 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v1 main_v10 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v2 main_v11 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v3 main_v12 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v4 main_v13 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v5 main_v14 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v6 main_v15 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v7 main_v16 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v8 main_v17 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    nary ![main_v9, main_v10, main_v11, main_v12, main_v13, main_v14, main_v15, main_v16, main_v17] main_v18 (fun u => concatenate S16x3x9x222x222 2 [⟨S16x3x1x222x222, u 0⟩, ⟨S16x3x1x222x222, u 1⟩, ⟨S16x3x1x222x222, u 2⟩, ⟨S16x3x1x222x222, u 3⟩, ⟨S16x3x1x222x222, u 4⟩, ⟨S16x3x1x222x222, u 5⟩, ⟨S16x3x1x222x222, u 6⟩, ⟨S16x3x1x222x222, u 7⟩, ⟨S16x3x1x222x222, u 8⟩] concatenates_S16x3x1x222x222_S16x3x1x222x222_S16x3x1x222x222_S16x3x1x222x222_S16x3x1x222x222_S16x3x1x222x222_S16x3x1x222x222_S16x3x1x222x222_S16x3x1x222x222_S16x3x9x222x222_d2),
    unary main_v18 main_v19 ((transpose S16x222x222x3x9 [0, 3, 4, 1, 2] · transposes_S16x3x9x222x222_S16x222x222x3x9_0_3_4_1_2) : (⟨S16x3x9x222x222, .f32⟩ : BufTy).Contents (Elt F) → (⟨S16x222x222x3x9, .f32⟩ : BufTy).Contents (Elt F)),
    reshape main_v19 main_v20 rfl shapeCasts_S16x222x222x3x9_S16x49284x3x9,
    unary main_c main_v21 ((extractStridedSlice S45x1 ![0, 0] · slices_S45x2_S45x1_0_0) : (⟨S45x2, .i32⟩ : BufTy).Contents (Elt F) → (⟨S45x1, .i32⟩ : BufTy).Contents (Elt F)),
    reshape main_v21 main_v22 rfl shapeCasts_S45x1_S45,
    nullary main_c_0 (constantI S_ 32 0#32),
    unary main_c_0 main_v23 (broadcastInDim S45 ![] bcast_S_S45 : (⟨S_, .i32⟩ : BufTy).Contents (Elt F) → (⟨S45, .i32⟩ : BufTy).Contents (Elt F)),
    binary main_v22 main_v23 main_v24 (cmpi .slt : (⟨S45, .i32⟩ : BufTy).Contents (Elt F) → (⟨S45, .i32⟩ : BufTy).Contents (Elt F) → (⟨S45, .i1⟩ : BufTy).Contents (Elt F)),
    nullary main_c_1 (constantI S_ 32 9#32),
    unary main_c_1 main_v25 (broadcastInDim S45 ![] bcast_S_S45 : (⟨S_, .i32⟩ : BufTy).Contents (Elt F) → (⟨S45, .i32⟩ : BufTy).Contents (Elt F)),
    binary main_v22 main_v25 main_v26 (addi : (⟨S45, .i32⟩ : BufTy).Contents (Elt F) → (⟨S45, .i32⟩ : BufTy).Contents (Elt F) → (⟨S45, .i32⟩ : BufTy).Contents (Elt F)),
    ternary main_v24 main_v26 main_v22 main_v27 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v27 main_v28 (broadcastInDim S45x1 ![0] bcast_S45_S45x1_0 : (⟨S45, .i32⟩ : BufTy).Contents (Elt F) → (⟨S45x1, .i32⟩ : BufTy).Contents (Elt F)),
    binary main_v20 main_v28 main_v29 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    unary main_c main_v30 ((extractStridedSlice S45x1 ![0, 1] · slices_S45x2_S45x1_0_1) : (⟨S45x2, .i32⟩ : BufTy).Contents (Elt F) → (⟨S45x1, .i32⟩ : BufTy).Contents (Elt F)),
    reshape main_v30 main_v31 rfl shapeCasts_S45x1_S45,
    nullary main_c_2 (constantI S_ 32 0#32),
    unary main_c_2 main_v32 (broadcastInDim S45 ![] bcast_S_S45 : (⟨S_, .i32⟩ : BufTy).Contents (Elt F) → (⟨S45, .i32⟩ : BufTy).Contents (Elt F)),
    binary main_v31 main_v32 main_v33 (cmpi .slt : (⟨S45, .i32⟩ : BufTy).Contents (Elt F) → (⟨S45, .i32⟩ : BufTy).Contents (Elt F) → (⟨S45, .i1⟩ : BufTy).Contents (Elt F)),
    nullary main_c_3 (constantI S_ 32 9#32),
    unary main_c_3 main_v34 (broadcastInDim S45 ![] bcast_S_S45 : (⟨S_, .i32⟩ : BufTy).Contents (Elt F) → (⟨S45, .i32⟩ : BufTy).Contents (Elt F)),
    binary main_v31 main_v34 main_v35 (addi : (⟨S45, .i32⟩ : BufTy).Contents (Elt F) → (⟨S45, .i32⟩ : BufTy).Contents (Elt F) → (⟨S45, .i32⟩ : BufTy).Contents (Elt F)),
    ternary main_v33 main_v35 main_v31 main_v36 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v36 main_v37 (broadcastInDim S45x1 ![0] bcast_S45_S45x1_0 : (⟨S45, .i32⟩ : BufTy).Contents (Elt F) → (⟨S45x1, .i32⟩ : BufTy).Contents (Elt F)),
    binary main_v20 main_v37 main_v38 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    binary main_v29 main_v38 main_v39 (mulf : (⟨S16x49284x3x45, .f32⟩ : BufTy).Contents (Elt F) → (⟨S16x49284x3x45, .f32⟩ : BufTy).Contents (Elt F) → (⟨S16x49284x3x45, .f32⟩ : BufTy).Contents (Elt F)),
    reshape main_v39 main_v40 rfl shapeCasts_S16x49284x3x45_S16x49284x135,
    binary main_arg1 main_v40 main_v41 ((fun l r => Host.dotGeneral dot_S64x135_S16x49284x135_S64x16x49284_1_2_0_01_n_n none l r) : (⟨S64x135, .f32⟩ : BufTy).Contents (Elt F) → (⟨S16x49284x135, .f32⟩ : BufTy).Contents (Elt F) → (⟨S64x16x49284, .f32⟩ : BufTy).Contents (Elt F)),
    unary main_v41 main_v42 ((transpose S16x64x49284 [1, 0, 2] · transposes_S64x16x49284_S16x64x49284_1_0_2) : (⟨S64x16x49284, .f32⟩ : BufTy).Contents (Elt F) → (⟨S16x64x49284, .f32⟩ : BufTy).Contents (Elt F)),
    reshape main_v42 main_v43 rfl shapeCasts_S16x64x49284_S16x64x222x222 ]

/-- @main is the sequence of its operations. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
/-- Every operation touches TensorCore buffers only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., binary_bufs_sub .., unary_bufs_sub .., reshape_bufs_sub ..⟩

/-! ## The run in two stretches

The first nineteen operations produce the table of position pairs and the nine shifted windows, each with its unit axis;
the remaining thirty consume them. What the first stretch leaves in the buffers the second reads is stated once, buffer by
buffer; the second stretch is then read over an arbitrary valuation and the two are composed. -/

/-- The first stretch: the table of pairs, the nine windows and their nine liftings. -/
abbrev opsA : List (HloOp τ sig (Elt F)) :=
  [ nullary main_c (fun i => lit0 (S45x2.rowMajor i)),
    unary main_arg0 main_v0 ((extractStridedSlice S16x3x222x222 ![0, 0, 0, 0] · slices_S16x3x224x224_S16x3x222x222_0_0_0_0) : (⟨S16x3x224x224, .f32⟩ : BufTy).Contents (Elt F) → (⟨S16x3x222x222, .f32⟩ : BufTy).Contents (Elt F)),
    unary main_arg0 main_v1 ((extractStridedSlice S16x3x222x222 ![0, 0, 0, 1] · slices_S16x3x224x224_S16x3x222x222_0_0_0_1) : (⟨S16x3x224x224, .f32⟩ : BufTy).Contents (Elt F) → (⟨S16x3x222x222, .f32⟩ : BufTy).Contents (Elt F)),
    unary main_arg0 main_v2 ((extractStridedSlice S16x3x222x222 ![0, 0, 0, 2] · slices_S16x3x224x224_S16x3x222x222_0_0_0_2) : (⟨S16x3x224x224, .f32⟩ : BufTy).Contents (Elt F) → (⟨S16x3x222x222, .f32⟩ : BufTy).Contents (Elt F)),
    unary main_arg0 main_v3 ((extractStridedSlice S16x3x222x222 ![0, 0, 1, 0] · slices_S16x3x224x224_S16x3x222x222_0_0_1_0) : (⟨S16x3x224x224, .f32⟩ : BufTy).Contents (Elt F) → (⟨S16x3x222x222, .f32⟩ : BufTy).Contents (Elt F)),
    unary main_arg0 main_v4 ((extractStridedSlice S16x3x222x222 ![0, 0, 1, 1] · slices_S16x3x224x224_S16x3x222x222_0_0_1_1) : (⟨S16x3x224x224, .f32⟩ : BufTy).Contents (Elt F) → (⟨S16x3x222x222, .f32⟩ : BufTy).Contents (Elt F)),
    unary main_arg0 main_v5 ((extractStridedSlice S16x3x222x222 ![0, 0, 1, 2] · slices_S16x3x224x224_S16x3x222x222_0_0_1_2) : (⟨S16x3x224x224, .f32⟩ : BufTy).Contents (Elt F) → (⟨S16x3x222x222, .f32⟩ : BufTy).Contents (Elt F)),
    unary main_arg0 main_v6 ((extractStridedSlice S16x3x222x222 ![0, 0, 2, 0] · slices_S16x3x224x224_S16x3x222x222_0_0_2_0) : (⟨S16x3x224x224, .f32⟩ : BufTy).Contents (Elt F) → (⟨S16x3x222x222, .f32⟩ : BufTy).Contents (Elt F)),
    unary main_arg0 main_v7 ((extractStridedSlice S16x3x222x222 ![0, 0, 2, 1] · slices_S16x3x224x224_S16x3x222x222_0_0_2_1) : (⟨S16x3x224x224, .f32⟩ : BufTy).Contents (Elt F) → (⟨S16x3x222x222, .f32⟩ : BufTy).Contents (Elt F)),
    unary main_arg0 main_v8 ((extractStridedSlice S16x3x222x222 ![0, 0, 2, 2] · slices_S16x3x224x224_S16x3x222x222_0_0_2_2) : (⟨S16x3x224x224, .f32⟩ : BufTy).Contents (Elt F) → (⟨S16x3x222x222, .f32⟩ : BufTy).Contents (Elt F)),
    unary main_v0 main_v9 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v1 main_v10 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v2 main_v11 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v3 main_v12 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v4 main_v13 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v5 main_v14 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v6 main_v15 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v7 main_v16 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v8 main_v17 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)) ]

/-- The second stretch: from the concatenation of the nine lifted windows to the result. -/
abbrev opsB : List (HloOp τ sig (Elt F)) :=
  [ nary ![main_v9, main_v10, main_v11, main_v12, main_v13, main_v14, main_v15, main_v16, main_v17] main_v18 (fun u => concatenate S16x3x9x222x222 2 [⟨S16x3x1x222x222, u 0⟩, ⟨S16x3x1x222x222, u 1⟩, ⟨S16x3x1x222x222, u 2⟩, ⟨S16x3x1x222x222, u 3⟩, ⟨S16x3x1x222x222, u 4⟩, ⟨S16x3x1x222x222, u 5⟩, ⟨S16x3x1x222x222, u 6⟩, ⟨S16x3x1x222x222, u 7⟩, ⟨S16x3x1x222x222, u 8⟩] concatenates_S16x3x1x222x222_S16x3x1x222x222_S16x3x1x222x222_S16x3x1x222x222_S16x3x1x222x222_S16x3x1x222x222_S16x3x1x222x222_S16x3x1x222x222_S16x3x1x222x222_S16x3x9x222x222_d2),
    unary main_v18 main_v19 ((transpose S16x222x222x3x9 [0, 3, 4, 1, 2] · transposes_S16x3x9x222x222_S16x222x222x3x9_0_3_4_1_2) : (⟨S16x3x9x222x222, .f32⟩ : BufTy).Contents (Elt F) → (⟨S16x222x222x3x9, .f32⟩ : BufTy).Contents (Elt F)),
    reshape main_v19 main_v20 rfl shapeCasts_S16x222x222x3x9_S16x49284x3x9,
    unary main_c main_v21 ((extractStridedSlice S45x1 ![0, 0] · slices_S45x2_S45x1_0_0) : (⟨S45x2, .i32⟩ : BufTy).Contents (Elt F) → (⟨S45x1, .i32⟩ : BufTy).Contents (Elt F)),
    reshape main_v21 main_v22 rfl shapeCasts_S45x1_S45,
    nullary main_c_0 (constantI S_ 32 0#32),
    unary main_c_0 main_v23 (broadcastInDim S45 ![] bcast_S_S45 : (⟨S_, .i32⟩ : BufTy).Contents (Elt F) → (⟨S45, .i32⟩ : BufTy).Contents (Elt F)),
    binary main_v22 main_v23 main_v24 (cmpi .slt : (⟨S45, .i32⟩ : BufTy).Contents (Elt F) → (⟨S45, .i32⟩ : BufTy).Contents (Elt F) → (⟨S45, .i1⟩ : BufTy).Contents (Elt F)),
    nullary main_c_1 (constantI S_ 32 9#32),
    unary main_c_1 main_v25 (broadcastInDim S45 ![] bcast_S_S45 : (⟨S_, .i32⟩ : BufTy).Contents (Elt F) → (⟨S45, .i32⟩ : BufTy).Contents (Elt F)),
    binary main_v22 main_v25 main_v26 (addi : (⟨S45, .i32⟩ : BufTy).Contents (Elt F) → (⟨S45, .i32⟩ : BufTy).Contents (Elt F) → (⟨S45, .i32⟩ : BufTy).Contents (Elt F)),
    ternary main_v24 main_v26 main_v22 main_v27 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v27 main_v28 (broadcastInDim S45x1 ![0] bcast_S45_S45x1_0 : (⟨S45, .i32⟩ : BufTy).Contents (Elt F) → (⟨S45x1, .i32⟩ : BufTy).Contents (Elt F)),
    binary main_v20 main_v28 main_v29 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    unary main_c main_v30 ((extractStridedSlice S45x1 ![0, 1] · slices_S45x2_S45x1_0_1) : (⟨S45x2, .i32⟩ : BufTy).Contents (Elt F) → (⟨S45x1, .i32⟩ : BufTy).Contents (Elt F)),
    reshape main_v30 main_v31 rfl shapeCasts_S45x1_S45,
    nullary main_c_2 (constantI S_ 32 0#32),
    unary main_c_2 main_v32 (broadcastInDim S45 ![] bcast_S_S45 : (⟨S_, .i32⟩ : BufTy).Contents (Elt F) → (⟨S45, .i32⟩ : BufTy).Contents (Elt F)),
    binary main_v31 main_v32 main_v33 (cmpi .slt : (⟨S45, .i32⟩ : BufTy).Contents (Elt F) → (⟨S45, .i32⟩ : BufTy).Contents (Elt F) → (⟨S45, .i1⟩ : BufTy).Contents (Elt F)),
    nullary main_c_3 (constantI S_ 32 9#32),
    unary main_c_3 main_v34 (broadcastInDim S45 ![] bcast_S_S45 : (⟨S_, .i32⟩ : BufTy).Contents (Elt F) → (⟨S45, .i32⟩ : BufTy).Contents (Elt F)),
    binary main_v31 main_v34 main_v35 (addi : (⟨S45, .i32⟩ : BufTy).Contents (Elt F) → (⟨S45, .i32⟩ : BufTy).Contents (Elt F) → (⟨S45, .i32⟩ : BufTy).Contents (Elt F)),
    ternary main_v33 main_v35 main_v31 main_v36 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v36 main_v37 (broadcastInDim S45x1 ![0] bcast_S45_S45x1_0 : (⟨S45, .i32⟩ : BufTy).Contents (Elt F) → (⟨S45x1, .i32⟩ : BufTy).Contents (Elt F)),
    binary main_v20 main_v37 main_v38 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    binary main_v29 main_v38 main_v39 (mulf : (⟨S16x49284x3x45, .f32⟩ : BufTy).Contents (Elt F) → (⟨S16x49284x3x45, .f32⟩ : BufTy).Contents (Elt F) → (⟨S16x49284x3x45, .f32⟩ : BufTy).Contents (Elt F)),
    reshape main_v39 main_v40 rfl shapeCasts_S16x49284x3x45_S16x49284x135,
    binary main_arg1 main_v40 main_v41 ((fun l r => Host.dotGeneral dot_S64x135_S16x49284x135_S64x16x49284_1_2_0_01_n_n none l r) : (⟨S64x135, .f32⟩ : BufTy).Contents (Elt F) → (⟨S16x49284x135, .f32⟩ : BufTy).Contents (Elt F) → (⟨S64x16x49284, .f32⟩ : BufTy).Contents (Elt F)),
    unary main_v41 main_v42 ((transpose S16x64x49284 [1, 0, 2] · transposes_S64x16x49284_S16x64x49284_1_0_2) : (⟨S64x16x49284, .f32⟩ : BufTy).Contents (Elt F) → (⟨S16x64x49284, .f32⟩ : BufTy).Contents (Elt F)),
    reshape main_v42 main_v43 rfl shapeCasts_S16x64x49284_S16x64x222x222 ]

/-- Running a concatenation is running its second part from what the first leaves. -/
theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

/-- The whole line is the two stretches, one after the other. -/
theorem after_ops (V : Valuation τ sig (Elt F)) : after ops V = after opsB (after opsA V) :=
  after_split opsA opsB V

/-! ### What the first stretch leaves -/

theorem valA_v9 (V : Valuation τ sig (Elt F)) :
    after opsA V (Proc.devRef .tc main_v9) = RefValue.lift (RefValue.win0 (V (Proc.devRef .tc main_arg0))) := by
  after_results_simp <;> rfl
theorem valA_v10 (V : Valuation τ sig (Elt F)) :
    after opsA V (Proc.devRef .tc main_v10) = RefValue.lift (RefValue.win1 (V (Proc.devRef .tc main_arg0))) := by
  after_results_simp <;> rfl
theorem valA_v11 (V : Valuation τ sig (Elt F)) :
    after opsA V (Proc.devRef .tc main_v11) = RefValue.lift (RefValue.win2 (V (Proc.devRef .tc main_arg0))) := by
  after_results_simp <;> rfl
theorem valA_v12 (V : Valuation τ sig (Elt F)) :
    after opsA V (Proc.devRef .tc main_v12) = RefValue.lift (RefValue.win3 (V (Proc.devRef .tc main_arg0))) := by
  after_results_simp <;> rfl
theorem valA_v13 (V : Valuation τ sig (Elt F)) :
    after opsA V (Proc.devRef .tc main_v13) = RefValue.lift (RefValue.win4 (V (Proc.devRef .tc main_arg0))) := by
  after_results_simp <;> rfl
theorem valA_v14 (V : Valuation τ sig (Elt F)) :
    after opsA V (Proc.devRef .tc main_v14) = RefValue.lift (RefValue.win5 (V (Proc.devRef .tc main_arg0))) := by
  after_results_simp <;> rfl
theorem valA_v15 (V : Valuation τ sig (Elt F)) :
    after opsA V (Proc.devRef .tc main_v15) = RefValue.lift (RefValue.win6 (V (Proc.devRef .tc main_arg0))) := by
  after_results_simp <;> rfl
theorem valA_v16 (V : Valuation τ sig (Elt F)) :
    after opsA V (Proc.devRef .tc main_v16) = RefValue.lift (RefValue.win7 (V (Proc.devRef .tc main_arg0))) := by
  after_results_simp <;> rfl
theorem valA_v17 (V : Valuation τ sig (Elt F)) :
    after opsA V (Proc.devRef .tc main_v17) = RefValue.lift (RefValue.win8 (V (Proc.devRef .tc main_arg0))) := by
  after_results_simp <;> rfl
theorem valA_c (V : Valuation τ sig (Elt F)) :
    after opsA V (Proc.devRef .tc main_c) = RefValue.pairTable := by
  after_results_simp <;> rfl
theorem valA_arg1 (V : Valuation τ sig (Elt F)) :
    after opsA V (Proc.devRef .tc main_arg1) = V (Proc.devRef .tc main_arg1) := by
  after_results_simp

/-! ### The result and the arguments after the whole line -/

/-- The result buffer holds the reference's term of the two arguments' contents. -/
theorem after_out (V : Valuation τ sig (Elt F)) :
    after ops V (Proc.devRef .tc main_v43)
      = RefValue.refOut (V (Proc.devRef .tc main_arg0)) (V (Proc.devRef .tc main_arg1)) := by
  rw [after_ops]
  have h9 := valA_v9 V; have h10 := valA_v10 V; have h11 := valA_v11 V; have h12 := valA_v12 V
  have h13 := valA_v13 V; have h14 := valA_v14 V; have h15 := valA_v15 V; have h16 := valA_v16 V
  have h17 := valA_v17 V; have hc := valA_c V; have h1 := valA_arg1 V
  generalize after opsA V = W at h9 h10 h11 h12 h13 h14 h15 h16 h17 hc h1 ⊢
  after_results_simp
  dsimp only [Matrix.cons_val]
  rw [h9, h10, h11, h12, h13, h14, h15, h16, h17, hc, h1]
  rfl

/-- The image's buffer is not written. -/
theorem after_arg0 (V : Valuation τ sig (Elt F)) :
    after ops V (Proc.devRef .tc main_arg0) = V (Proc.devRef .tc main_arg0) := by
  after_results_simp
/-- The weights' buffer is not written. -/
theorem after_arg1 (V : Valuation τ sig (Elt F)) :
    after ops V (Proc.devRef .tc main_arg1) = V (Proc.devRef .tc main_arg1) := by
  after_results_simp

/-- On every device, for any float values, from any memory with zero counters: every weakly fair execution of
    @main terminates with the result buffer at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = Cert.ReferenceIdeal.RefValue.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v43).trans (after_out (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ)

end Cert.ReferenceIdeal.RefRun

end
-- ==== Proof.RefReadA.lean ====
/-
  The image side of the reference read at an index: the patches' entry at batch entry `b`, window origin `(h, v)`
  (row `222·h + v` of the flattened grid of origins), channel `c` and window position `a` is the image at
  `(b, c, h + a / 3, v + a % 3)`.
-/
import proofs.«135709_j56427280335471_2_alg».proof.Proof.RefTerm
import Idealize.ShloMosaic.Lib.ValueIdx
import Idealize.ShloMosaic.Lib.Pipeline.Value

noncomputable section

namespace Cert.ReferenceIdeal.RefValue

open Idealize.ShloMosaic Idealize.SL.Sem Idealize.ShloMosaic.ValueIdx
open Cert.ReferenceIdeal Cert.ReferenceIdeal.Facts₀

/-- A slice of the image at offsets `(0, 0, i, j)` read at an index is the image at the index shifted by them. -/
theorem slice_apply (i j : Nat) (hs : S16x3x224x224.Slices ![0, 0, i, j] S16x3x222x222) (x : FVec Ideal S16x3x224x224 .f32)
    (b : Fin 16) (c : Fin 3) (h v : Fin 222) (hi : h.val + i < 224) (hj : v.val + j < 224) :
    extractStridedSlice S16x3x222x222 ![0, 0, i, j] x hs (ix4 b c h v)
      = x (ix4 b c (⟨h.val + i, hi⟩ : Fin 224) (⟨v.val + j, hj⟩ : Fin 224)) :=
  extractStridedSlice_apply _ x hs _ _ (fun e => match e with
    | ⟨0, _⟩ => by show b.val = 0 + b.val; omega
    | ⟨1, _⟩ => by show c.val = 0 + c.val; omega
    | ⟨2, _⟩ => by show h.val + i = i + h.val; omega
    | ⟨3, _⟩ => by show v.val + j = j + v.val; omega)

/-- The same with the offsets written as the row and column of a window position `n`. -/
theorem slice_apply_pos (i j n : Nat) (hn : n < 9) (hi : n / 3 = i) (hj : n % 3 = j)
    (hs : S16x3x224x224.Slices ![0, 0, i, j] S16x3x222x222) (x : FVec Ideal S16x3x224x224 .f32)
    (b : Fin 16) (c : Fin 3) (h v : Fin 222) :
    extractStridedSlice S16x3x222x222 ![0, 0, i, j] x hs (ix4 b c h v)
      = x (ix4 b c (⟨h.val + n / 3, by have := h.isLt; omega⟩ : Fin 224) (⟨v.val + n % 3, by have := v.isLt; omega⟩ : Fin 224)) := by
  subst hi hj
  exact slice_apply _ _ hs x b c h v _ _

/-- A window with the unit axis inserted, read at an index, is the window at the other four coordinates. -/
theorem lift_apply (y : FVec Ideal S16x3x222x222 .f32) (b : Fin 16) (c : Fin 3) (z : Fin 1) (h v : Fin 222) :
    lift (F := Ideal) y (ix5 b c z h v) = y (ix4 b c h v) :=
  broadcastInDim_apply _ _ y _ _ (fun e => match e with
    | ⟨0, _⟩ => rfl | ⟨1, _⟩ => rfl | ⟨2, _⟩ => rfl | ⟨3, _⟩ => rfl)

/-- Off the stacking axis a piece's index has the coordinates of the stack's index. -/
theorem offAxis (b : Fin 16) (c : Fin 3) (a : Fin 9) (h v : Fin 222) :
    ∀ e : Fin S16x3x1x222x222.rank, e.cast (rfl : S16x3x1x222x222.rank = S16x3x9x222x222.rank) ≠ (2 : Fin S16x3x9x222x222.rank) →
      ((ix5 b c (0 : Fin 1) h v : S16x3x1x222x222.Idx) e).val
        = ((ix5 b c a h v : S16x3x9x222x222.Idx) (e.cast (rfl : S16x3x1x222x222.rank = S16x3x9x222x222.rank))).val :=
  fun e he => match e, he with
    | ⟨0, _⟩, _ => rfl
    | ⟨1, _⟩, _ => rfl
    | ⟨2, _⟩, he => absurd rfl he
    | ⟨3, _⟩, _ => rfl
    | ⟨4, _⟩, _ => rfl

/-- The stack read at an index: position `a` on the stacking axis reads the window shifted by `a / 3` rows and `a % 3`
    columns. -/
theorem stack_apply (x : FVec Ideal S16x3x224x224 .f32) (b : Fin 16) (c : Fin 3) (a : Fin 9) (h v : Fin 222) :
    stack (F := Ideal) x (ix5 b c a h v)
      = x (ix4 b c (⟨h.val + a.val / 3, by have := h.isLt; have := a.isLt; omega⟩ : Fin 224)
          (⟨v.val + a.val % 3, by have := v.isLt; have := a.isLt; omega⟩ : Fin 224)) := by
  unfold stack
  match a with
  | ⟨0, _⟩ =>
    refine Eq.trans (concatenate_apply_piece (t := S16x3x9x222x222) 2 _ _ (ix5 b c (⟨0, by omega⟩ : Fin 9) h v) 0 ?_
      S16x3x1x222x222 (lift (F := Ideal) (win0 (F := Ideal) x)) ?_ rfl 0 ?_ (ix5 b c 0 h v) (offAxis b c _ h v) rfl)
      ((lift_apply (win0 (F := Ideal) x) b c 0 h v).trans ?_)
    · show (0 : ℕ) < 9
      omega
    · rfl
    · rfl
    · exact slice_apply_pos 0 0 0 (by omega) rfl rfl _ x b c h v
  | ⟨1, _⟩ =>
    refine Eq.trans (concatenate_apply_piece (t := S16x3x9x222x222) 2 _ _ (ix5 b c (⟨1, by omega⟩ : Fin 9) h v) 1 ?_
      S16x3x1x222x222 (lift (F := Ideal) (win1 (F := Ideal) x)) ?_ rfl 1 ?_ (ix5 b c 0 h v) (offAxis b c _ h v) rfl)
      ((lift_apply (win1 (F := Ideal) x) b c 0 h v).trans ?_)
    · show (1 : ℕ) < 9
      omega
    · rfl
    · rfl
    · exact slice_apply_pos 0 1 1 (by omega) rfl rfl _ x b c h v
  | ⟨2, _⟩ =>
    refine Eq.trans (concatenate_apply_piece (t := S16x3x9x222x222) 2 _ _ (ix5 b c (⟨2, by omega⟩ : Fin 9) h v) 2 ?_
      S16x3x1x222x222 (lift (F := Ideal) (win2 (F := Ideal) x)) ?_ rfl 2 ?_ (ix5 b c 0 h v) (offAxis b c _ h v) rfl)
      ((lift_apply (win2 (F := Ideal) x) b c 0 h v).trans ?_)
    · show (2 : ℕ) < 9
      omega
    · rfl
    · rfl
    · exact slice_apply_pos 0 2 2 (by omega) rfl rfl _ x b c h v
  | ⟨3, _⟩ =>
    refine Eq.trans (concatenate_apply_piece (t := S16x3x9x222x222) 2 _ _ (ix5 b c (⟨3, by omega⟩ : Fin 9) h v) 3 ?_
      S16x3x1x222x222 (lift (F := Ideal) (win3 (F := Ideal) x)) ?_ rfl 3 ?_ (ix5 b c 0 h v) (offAxis b c _ h v) rfl)
      ((lift_apply (win3 (F := Ideal) x) b c 0 h v).trans ?_)
    · show (3 : ℕ) < 9
      omega
    · rfl
    · rfl
    · exact slice_apply_pos 1 0 3 (by omega) rfl rfl _ x b c h v
  | ⟨4, _⟩ =>
    refine Eq.trans (concatenate_apply_piece (t := S16x3x9x222x222) 2 _ _ (ix5 b c (⟨4, by omega⟩ : Fin 9) h v) 4 ?_
      S16x3x1x222x222 (lift (F := Ideal) (win4 (F := Ideal) x)) ?_ rfl 4 ?_ (ix5 b c 0 h v) (offAxis b c _ h v) rfl)
      ((lift_apply (win4 (F := Ideal) x) b c 0 h v).trans ?_)
    · show (4 : ℕ) < 9
      omega
    · rfl
    · rfl
    · exact slice_apply_pos 1 1 4 (by omega) rfl rfl _ x b c h v
  | ⟨5, _⟩ =>
    refine Eq.trans (concatenate_apply_piece (t := S16x3x9x222x222) 2 _ _ (ix5 b c (⟨5, by omega⟩ : Fin 9) h v) 5 ?_
      S16x3x1x222x222 (lift (F := Ideal) (win5 (F := Ideal) x)) ?_ rfl 5 ?_ (ix5 b c 0 h v) (offAxis b c _ h v) rfl)
      ((lift_apply (win5 (F := Ideal) x) b c 0 h v).trans ?_)
    · show (5 : ℕ) < 9
      omega
    · rfl
    · rfl
    · exact slice_apply_pos 1 2 5 (by omega) rfl rfl _ x b c h v
  | ⟨6, _⟩ =>
    refine Eq.trans (concatenate_apply_piece (t := S16x3x9x222x222) 2 _ _ (ix5 b c (⟨6, by omega⟩ : Fin 9) h v) 6 ?_
      S16x3x1x222x222 (lift (F := Ideal) (win6 (F := Ideal) x)) ?_ rfl 6 ?_ (ix5 b c 0 h v) (offAxis b c _ h v) rfl)
      ((lift_apply (win6 (F := Ideal) x) b c 0 h v).trans ?_)
    · show (6 : ℕ) < 9
      omega
    · rfl
    · rfl
    · exact slice_apply_pos 2 0 6 (by omega) rfl rfl _ x b c h v
  | ⟨7, _⟩ =>
    refine Eq.trans (concatenate_apply_piece (t := S16x3x9x222x222) 2 _ _ (ix5 b c (⟨7, by omega⟩ : Fin 9) h v) 7 ?_
      S16x3x1x222x222 (lift (F := Ideal) (win7 (F := Ideal) x)) ?_ rfl 7 ?_ (ix5 b c 0 h v) (offAxis b c _ h v) rfl)
      ((lift_apply (win7 (F := Ideal) x) b c 0 h v).trans ?_)
    · show (7 : ℕ) < 9
      omega
    · rfl
    · rfl
    · exact slice_apply_pos 2 1 7 (by omega) rfl rfl _ x b c h v
  | ⟨8, _⟩ =>
    refine Eq.trans (concatenate_apply_piece (t := S16x3x9x222x222) 2 _ _ (ix5 b c (⟨8, by omega⟩ : Fin 9) h v) 8 ?_
      S16x3x1x222x222 (lift (F := Ideal) (win8 (F := Ideal) x)) ?_ rfl 8 ?_ (ix5 b c 0 h v) (offAxis b c _ h v) rfl)
      ((lift_apply (win8 (F := Ideal) x) b c 0 h v).trans ?_)
    · show (8 : ℕ) < 9
      omega
    · rfl
    · rfl
    · exact slice_apply_pos 2 2 8 (by omega) rfl rfl _ x b c h v

/-- The transposed stack read at an index. -/
theorem stackT_apply (x : FVec Ideal S16x3x224x224 .f32) (b : Fin 16) (h v : Fin 222) (c : Fin 3) (a : Fin 9) :
    stackT (F := Ideal) x (ix5 b h v c a) = stack (F := Ideal) x (ix5 b c a h v) :=
  transpose_apply _ _ _ _ _ (fun e => match e with
    | ⟨0, _⟩ => rfl | ⟨1, _⟩ => rfl | ⟨2, _⟩ => rfl | ⟨3, _⟩ => rfl | ⟨4, _⟩ => rfl)

/-- The patches read at an index: row `222·h + v` is the window origin `(h, v)`. -/
theorem patches_apply (x : FVec Ideal S16x3x224x224 .f32) (b : Fin 16) (h v : Fin 222) (c : Fin 3) (a : Fin 9) :
    patches (F := Ideal) x (ix4 b (⟨222 * h.val + v.val, by have := h.isLt; have := v.isLt; omega⟩ : Fin 49284) c a)
      = x (ix4 b c (⟨h.val + a.val / 3, by have := h.isLt; have := a.isLt; omega⟩ : Fin 224)
          (⟨v.val + a.val % 3, by have := v.isLt; have := a.isLt; omega⟩ : Fin 224)) := by
  refine (shapeCast_apply (stackT (F := Ideal) x) _ _ (ix5 b h v c a) ?_).trans
    ((stackT_apply x b h v c a).trans (stack_apply x b c a h v))
  rw [Shape.rowMajor_val_five, Shape.rowMajor_val_four]
  show ((((b.val * 222 + h.val) * 222 + v.val) * 3 + c.val) * 9 + a.val)
    = ((b.val * 49284 + (222 * h.val + v.val)) * 3 + c.val) * 9 + a.val
  have := b.isLt; have := h.isLt; have := v.isLt
  omega

end Cert.ReferenceIdeal.RefValue

end
-- ==== Proof.RefReadB.lean ====
/-
  The index side of the reference read at an index: the start indices computed from the table of position pairs are
  the pairs' positions, and the gather along the position axis reads the patches' entry at that position.
-/
import proofs.«135709_j56427280335471_2_alg».proof.Proof.RefTerm
import proofs.«135709_j56427280335471_2_alg».proof.Proof.Spec
import Idealize.ShloMosaic.Lib.ValueIdx
import Idealize.ShloMosaic.Lib.Pipeline.Value

noncomputable section

namespace Cert.ReferenceIdeal.RefValue

open Idealize.ShloMosaic Idealize.SL.Sem Idealize.ShloMosaic.ValueIdx
open Cert.ReferenceIdeal Cert.ReferenceIdeal.Facts₀

/-- The table's word at row `k` and column `e` is entry `2·k + e` of the row-major list. -/
theorem pairTable_apply (k : Fin 45) (e : Fin 2) :
    pairTable (F := Ideal) (ix2 k e) = lit0 (⟨2 * k.val + e.val, by have := k.isLt; have := e.isLt; omega⟩ : Fin 90) := by
  show lit0 (S45x2.rowMajor (ix2 k e)) = _
  refine congrArg lit0 (Fin.ext ?_)
  rw [Shape.rowMajor_val_two]
  show k.val * 2 + e.val = 2 * k.val + e.val
  omega

/-- Column 0 of the table at row `k`. -/
theorem colA0_apply (k : Fin 45) : colA0 (F := Ideal) (ix2 k 0) = pairTable (F := Ideal) (ix2 k 0) :=
  extractStridedSlice_apply _ _ _ _ _ (fun e => match e with
    | ⟨0, _⟩ => by show k.val = 0 + k.val; omega | ⟨1, _⟩ => rfl)

/-- Column 1 of the table at row `k`. -/
theorem colB0_apply (k : Fin 45) : colB0 (F := Ideal) (ix2 k 0) = pairTable (F := Ideal) (ix2 k 1) :=
  extractStridedSlice_apply _ _ _ _ _ (fun e => match e with
    | ⟨0, _⟩ => by show k.val = 0 + k.val; omega | ⟨1, _⟩ => rfl)

/-- A position word with a negative one counted from the end of the nine positions. -/
def wrapWord (p : BitVec 32) : BitVec 32 := Scalar.select (IntOp.cmpi .slt p 0#32) (IntOp.addi p 9#32) p

/-- The start index of row `k` computed from a column of the table is the wrapped word of the column's entry. -/
theorem starts_apply (c : IVec S45x1 32) (k : Fin 45) :
    starts (F := Ideal) (wrap (F := Ideal) (flat (F := Ideal) c)) (ix2 k 0) = wrapWord (c (ix2 k 0)) := by
  have e1 : starts (F := Ideal) (wrap (F := Ideal) (flat (F := Ideal) c)) (ix2 k 0)
      = wrap (F := Ideal) (flat (F := Ideal) c) (ix1 k) :=
    broadcastInDim_apply _ _ _ _ _ (fun e => match e with | ⟨0, _⟩ => rfl)
  have e2 : flat (F := Ideal) c (ix1 k) = c (ix2 k 0) := by
    refine shapeCast_apply c _ _ (ix2 k 0) ?_
    rw [Shape.rowMajor_val_two, Shape.rowMajor_val_one]
    show k.val * 1 + 0 = k.val
    omega
  rw [e1]
  show Scalar.select (IntOp.cmpi .slt (flat (F := Ideal) c (ix1 k)) 0#32) (IntOp.addi (flat (F := Ideal) c (ix1 k)) 9#32)
    (flat (F := Ideal) c (ix1 k)) = _
  rw [e2]
  rfl

/-- The wrapped first positions of the pairs, read as naturals, are the first positions. -/
theorem wrapWord_A : ∀ k : Fin 45,
    (wrapWord (lit0 (⟨2 * k.val + (0 : Fin 2).val, by have := k.isLt; omega⟩ : Fin 90))).toInt.toNat = (Cert.DeConv.pairA k).val := by
  decide

/-- The wrapped second positions of the pairs, read as naturals, are the second positions. -/
theorem wrapWord_B : ∀ k : Fin 45,
    (wrapWord (lit0 (⟨2 * k.val + (1 : Fin 2).val, by have := k.isLt; omega⟩ : Fin 90))).toInt.toNat = (Cert.DeConv.pairB k).val := by
  decide

/-- The start index of the first position of pair `k`. -/
theorem idxA_apply (k : Fin 45) : (idxA (F := Ideal) (ix2 k 0)).toInt.toNat = (Cert.DeConv.pairA k).val := by
  unfold idxA
  rw [starts_apply, colA0_apply, pairTable_apply]
  exact wrapWord_A k

/-- The start index of the second position of pair `k`. -/
theorem idxB_apply (k : Fin 45) : (idxB (F := Ideal) (ix2 k 0)).toInt.toNat = (Cert.DeConv.pairB k).val := by
  unfold idxB
  rw [starts_apply, colB0_apply, pairTable_apply]
  exact wrapWord_B k

/-- On an axis the start indices do not address, the gather's operand index has the result index's coordinate. -/
theorem operandIdx_0 (i : IVec S45x1 32) (b : Fin 16) (L : Fin 49284) (c : Fin 3) (k : Fin 45) :
    (gather_S16x49284x3x9_S45x1_S16x49284x3x45_012_3_n_n_3_1_164928431.operandIdx (ix4 b L c k) i ⟨0, by decide⟩).val
      = b.val := by
  show gather_S16x49284x3x9_S45x1_S16x49284x3x45_012_3_n_n_3_1_164928431.start (ix4 b L c k) i ⟨0, by decide⟩
    + gather_S16x49284x3x9_S45x1_S16x49284x3x45_012_3_n_n_3_1_164928431.batchCoord (ix4 b L c k) ⟨0, by decide⟩
    + gather_S16x49284x3x9_S45x1_S16x49284x3x45_012_3_n_n_3_1_164928431.offCoord (ix4 b L c k) ⟨0, by decide⟩ = _
  rw [GatherDims.batchCoord_eq_zero _ _ _ List.not_mem_nil]
  unfold GatherDims.start
  rw [dif_neg (by decide)]
  unfold GatherDims.offCoord
  rw [dif_pos (by decide)]
  simp only [Nat.zero_add, Nat.add_zero]
  rfl

theorem operandIdx_1 (i : IVec S45x1 32) (b : Fin 16) (L : Fin 49284) (c : Fin 3) (k : Fin 45) :
    (gather_S16x49284x3x9_S45x1_S16x49284x3x45_012_3_n_n_3_1_164928431.operandIdx (ix4 b L c k) i ⟨1, by decide⟩).val
      = L.val := by
  show gather_S16x49284x3x9_S45x1_S16x49284x3x45_012_3_n_n_3_1_164928431.start (ix4 b L c k) i ⟨1, by decide⟩
    + gather_S16x49284x3x9_S45x1_S16x49284x3x45_012_3_n_n_3_1_164928431.batchCoord (ix4 b L c k) ⟨1, by decide⟩
    + gather_S16x49284x3x9_S45x1_S16x49284x3x45_012_3_n_n_3_1_164928431.offCoord (ix4 b L c k) ⟨1, by decide⟩ = _
  rw [GatherDims.batchCoord_eq_zero _ _ _ List.not_mem_nil]
  unfold GatherDims.start
  rw [dif_neg (by decide)]
  unfold GatherDims.offCoord
  rw [dif_pos (by decide)]
  simp only [Nat.zero_add, Nat.add_zero]
  rfl

theorem operandIdx_2 (i : IVec S45x1 32) (b : Fin 16) (L : Fin 49284) (c : Fin 3) (k : Fin 45) :
    (gather_S16x49284x3x9_S45x1_S16x49284x3x45_012_3_n_n_3_1_164928431.operandIdx (ix4 b L c k) i ⟨2, by decide⟩).val
      = c.val := by
  show gather_S16x49284x3x9_S45x1_S16x49284x3x45_012_3_n_n_3_1_164928431.start (ix4 b L c k) i ⟨2, by decide⟩
    + gather_S16x49284x3x9_S45x1_S16x49284x3x45_012_3_n_n_3_1_164928431.batchCoord (ix4 b L c k) ⟨2, by decide⟩
    + gather_S16x49284x3x9_S45x1_S16x49284x3x45_012_3_n_n_3_1_164928431.offCoord (ix4 b L c k) ⟨2, by decide⟩ = _
  rw [GatherDims.batchCoord_eq_zero _ _ _ List.not_mem_nil]
  unfold GatherDims.start
  rw [dif_neg (by decide)]
  unfold GatherDims.offCoord
  rw [dif_pos (by decide)]
  simp only [Nat.zero_add, Nat.add_zero]
  rfl

/-- On the position axis the operand index is the start index of the result's pair, read signed and clamped into the
    nine positions. -/
theorem operandIdx_3 (i : IVec S45x1 32) (b : Fin 16) (L : Fin 49284) (c : Fin 3) (k : Fin 45) :
    (gather_S16x49284x3x9_S45x1_S16x49284x3x45_012_3_n_n_3_1_164928431.operandIdx (ix4 b L c k) i ⟨3, by decide⟩).val
      = min (i (ix2 k 0)).toInt.toNat 8 := by
  show gather_S16x49284x3x9_S45x1_S16x49284x3x45_012_3_n_n_3_1_164928431.start (ix4 b L c k) i ⟨3, by decide⟩
    + gather_S16x49284x3x9_S45x1_S16x49284x3x45_012_3_n_n_3_1_164928431.batchCoord (ix4 b L c k) ⟨3, by decide⟩
    + gather_S16x49284x3x9_S45x1_S16x49284x3x45_012_3_n_n_3_1_164928431.offCoord (ix4 b L c k) ⟨3, by decide⟩ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (⟨3, by decide⟩ : Fin 4) ∈ gather_S16x49284x3x9_S45x1_S16x49284x3x45_012_3_n_n_3_1_164928431.startIndexMap
    from List.mem_singleton.mpr rfl)]
  have hsi : gather_S16x49284x3x9_S45x1_S16x49284x3x45_012_3_n_n_3_1_164928431.siIdx (ix4 b L c k)
      ⟨List.idxOf (⟨3, by decide⟩ : Fin 4) gather_S16x49284x3x9_S45x1_S16x49284x3x45_012_3_n_n_3_1_164928431.startIndexMap,
        List.idxOf_lt_length_iff.2 (List.mem_singleton.mpr rfl)⟩ = ix2 k 0 := by
    funext e; refine Fin.ext ?_
    match e with
    | ⟨0, _⟩ => rfl
    | ⟨1, _⟩ => rfl
  rw [hsi]
  rfl

/-- The gather along the position axis read at an index: the patches' entry at the start index of the pair, read
    signed and clamped into the nine positions. -/
theorem pick_apply (p : FVec Ideal S16x49284x3x9 .f32) (i : IVec S45x1 32) (b : Fin 16) (L : Fin 49284) (c : Fin 3)
    (k : Fin 45) :
    pick (F := Ideal) p i (ix4 b L c k)
      = p (ix4 b L c (⟨min (i (ix2 k 0)).toInt.toNat 8, by omega⟩ : Fin 9)) := by
  unfold pick Host.gather
  refine congrArg p (funext fun a => Fin.ext ?_)
  match a with
  | ⟨0, _⟩ => exact operandIdx_0 i b L c k
  | ⟨1, _⟩ => exact operandIdx_1 i b L c k
  | ⟨2, _⟩ => exact operandIdx_2 i b L c k
  | ⟨3, _⟩ => exact operandIdx_3 i b L c k

end Cert.ReferenceIdeal.RefValue

end
-- ==== Proof.RefRead.lean ====
/-
  The reference's result is the specification's array: at batch entry `b`, output channel `o` and window origin
  `(h, v)` the last reshape reads row `222·h + v` of the batch-major product, the transpose reads the product at
  `(o, b, 222·h + v)`, the contraction is the sum over the 135 features of the weight times the feature, the features
  of a row are the 3 × 45 products of pairs in channel-major order, and each product is the product of the two
  window entries the pair's positions name, which lie inside the image.
-/
import proofs.«135709_j56427280335471_2_alg».proof.Proof.RefReadA
import proofs.«135709_j56427280335471_2_alg».proof.Proof.RefReadB
import Idealize.ShloMosaic.PureOps.Ideal.Laws

noncomputable section

namespace Cert.ReferenceIdeal.RefValue

open Idealize.ShloMosaic Idealize.SL.Sem Idealize.ShloMosaic.ValueIdx
open Cert.ReferenceIdeal Cert.ReferenceIdeal.Facts₀

/-- Row `222·h + v` of the flattened grid of window origins. -/
def rowOf (h v : Fin 222) : Fin 49284 := ⟨222 * h.val + v.val, by have := h.isLt; have := v.isLt; omega⟩

/-- A window entry of the patches is the image read through the specification's accessor: the entry is inside the
    image. -/
theorem patches_xAt (x : FVec Ideal S16x3x224x224 .f32) (b : Fin 16) (h v : Fin 222) (c : Fin 3) (a : Fin 9) :
    patches (F := Ideal) x (ix4 b (rowOf h v) c a)
      = Cert.DeConv.xAt x b c (h.val + a.val / 3) (v.val + a.val % 3) := by
  refine (patches_apply x b h v c a).trans ?_
  have hr : h.val + a.val / 3 < 224 ∧ v.val + a.val % 3 < 224 := by
    have := h.isLt; have := v.isLt; have := a.isLt
    constructor <;> omega
  unfold Cert.DeConv.xAt
  rw [dif_pos hr]

/-- The entry the gather by the first positions reads. -/
theorem pickA_apply (x : FVec Ideal S16x3x224x224 .f32) (b : Fin 16) (h v : Fin 222) (c : Fin 3) (k : Fin 45) :
    pick (F := Ideal) (patches (F := Ideal) x) (idxA (F := Ideal)) (ix4 b (rowOf h v) c k)
      = Cert.DeConv.xAt x b c (h.val + (Cert.DeConv.pairA k).val / 3) (v.val + (Cert.DeConv.pairA k).val % 3) := by
  refine (pick_apply _ _ b (rowOf h v) c k).trans ?_
  have e : (⟨min (idxA (F := Ideal) (ix2 k 0)).toInt.toNat 8, by omega⟩ : Fin 9) = Cert.DeConv.pairA k :=
    Fin.ext (by
      show min (idxA (F := Ideal) (ix2 k 0)).toInt.toNat 8 = (Cert.DeConv.pairA k).val
      rw [idxA_apply]
      have := (Cert.DeConv.pairA k).isLt
      omega)
  exact (congrArg (fun q : Fin 9 => patches (F := Ideal) x (ix4 b (rowOf h v) c q)) e).trans
    (patches_xAt x b h v c (Cert.DeConv.pairA k))

/-- The entry the gather by the second positions reads. -/
theorem pickB_apply (x : FVec Ideal S16x3x224x224 .f32) (b : Fin 16) (h v : Fin 222) (c : Fin 3) (k : Fin 45) :
    pick (F := Ideal) (patches (F := Ideal) x) (idxB (F := Ideal)) (ix4 b (rowOf h v) c k)
      = Cert.DeConv.xAt x b c (h.val + (Cert.DeConv.pairB k).val / 3) (v.val + (Cert.DeConv.pairB k).val % 3) := by
  refine (pick_apply _ _ b (rowOf h v) c k).trans ?_
  have e : (⟨min (idxB (F := Ideal) (ix2 k 0)).toInt.toNat 8, by omega⟩ : Fin 9) = Cert.DeConv.pairB k :=
    Fin.ext (by
      show min (idxB (F := Ideal) (ix2 k 0)).toInt.toNat 8 = (Cert.DeConv.pairB k).val
      rw [idxB_apply]
      have := (Cert.DeConv.pairB k).isLt
      omega)
  exact (congrArg (fun q : Fin 9 => patches (F := Ideal) x (ix4 b (rowOf h v) c q)) e).trans
    (patches_xAt x b h v c (Cert.DeConv.pairB k))

/-- A feature of a row: the product of the two window entries of its pair. -/
theorem feats_apply (x : FVec Ideal S16x3x224x224 .f32) (b : Fin 16) (h v : Fin 222) (c : Fin 3) (k : Fin 45) :
    feats (F := Ideal) x (ix3 b (rowOf h v) (Cert.DeConv.featIdx c k))
      = Cert.DeConv.xAt x b c (h.val + (Cert.DeConv.pairA k).val / 3) (v.val + (Cert.DeConv.pairA k).val % 3)
        * Cert.DeConv.xAt x b c (h.val + (Cert.DeConv.pairB k).val / 3) (v.val + (Cert.DeConv.pairB k).val % 3) := by
  have e1 : feats (F := Ideal) x (ix3 b (rowOf h v) (Cert.DeConv.featIdx c k))
      = prods (F := Ideal) x (ix4 b (rowOf h v) c k) := by
    refine shapeCast_apply (prods (F := Ideal) x) _ _ (ix4 b (rowOf h v) c k) ?_
    rw [Shape.rowMajor_val_four, Shape.rowMajor_val_three]
    show ((b.val * 49284 + (rowOf h v).val) * 3 + c.val) * 45 + k.val
      = (b.val * 49284 + (rowOf h v).val) * 135 + (45 * c.val + k.val)
    omega
  rw [e1]
  unfold prods
  rw [mulf_apply, pickA_apply, pickB_apply]

/-- The contraction read at an index: the sum over the features of the weight times the feature. -/
theorem dotted_apply (x : FVec Ideal S16x3x224x224 .f32) (w : FVec Ideal S64x135 .f32) (o : Fin 64) (b : Fin 16)
    (L : Fin 49284) :
    dotted (F := Ideal) x w (ix3 o b L) = ∑ f : Fin 135, w (ix2 o f) * feats (F := Ideal) x (ix3 b L f) := by
  unfold dotted
  show FloatOps.dotGeneral dot_S64x135_S16x49284x135_S64x16x49284_1_2_0_01_n_n none _ w (feats (F := Ideal) x) (ix3 o b L) = _
  rw [Ideal.dotGeneral_apply,
    ← Equiv.sum_comp (contrEquiv1 dot_S64x135_S16x49284x135_S64x16x49284_1_2_0_01_n_n 135 rfl rfl).symm]
  refine Finset.sum_congr rfl fun f _ => ?_
  have c3 := contrEquiv1_symm_val dot_S64x135_S16x49284x135_S64x16x49284_1_2_0_01_n_n 135 rfl rfl f
  have l3 : dot_S64x135_S16x49284x135_S64x16x49284_1_2_0_01_n_n.lhsIdx (ix3 o b L)
      ((contrEquiv1 dot_S64x135_S16x49284x135_S64x16x49284_1_2_0_01_n_n 135 rfl rfl).symm f) = ix2 o f := by
    funext ax; apply Fin.ext
    match ax with
    | ⟨0, _⟩ => simp [DotDims.lhsIdx, dot_S64x135_S16x49284x135_S64x16x49284_1_2_0_01_n_n]; rfl
    | ⟨1, _⟩ => simp [DotDims.lhsIdx, dot_S64x135_S16x49284x135_S64x16x49284_1_2_0_01_n_n]; exact c3
  have r3 : dot_S64x135_S16x49284x135_S64x16x49284_1_2_0_01_n_n.rhsIdx (ix3 o b L)
      ((contrEquiv1 dot_S64x135_S16x49284x135_S64x16x49284_1_2_0_01_n_n 135 rfl rfl).symm f) = ix3 b L f := by
    funext ax; apply Fin.ext
    match ax with
    | ⟨0, _⟩ => simp [DotDims.rhsIdx, dot_S64x135_S16x49284x135_S64x16x49284_1_2_0_01_n_n]; rfl
    | ⟨1, _⟩ => simp [DotDims.rhsIdx, dot_S64x135_S16x49284x135_S64x16x49284_1_2_0_01_n_n]; rfl
    | ⟨2, _⟩ => simp [DotDims.rhsIdx, dot_S64x135_S16x49284x135_S64x16x49284_1_2_0_01_n_n]; exact c3
  rw [l3, r3]

/-- The reference's result read at an index. -/
theorem refOut_apply (x : FVec Ideal S16x3x224x224 .f32) (w : FVec Ideal S64x135 .f32) (b : Fin 16) (o : Fin 64)
    (h v : Fin 222) :
    refOut (F := Ideal) x w (ix4 b o h v) = Cert.DeConv.val x w b o h.val v.val := by
  have e1 : refOut (F := Ideal) x w (ix4 b o h v) = dottedT (F := Ideal) x w (ix3 b o (rowOf h v)) := by
    refine shapeCast_apply (dottedT (F := Ideal) x w) _ _ (ix3 b o (rowOf h v)) ?_
    rw [Shape.rowMajor_val_four, Shape.rowMajor_val_three]
    show (b.val * 64 + o.val) * 49284 + (222 * h.val + v.val) = ((b.val * 64 + o.val) * 222 + h.val) * 222 + v.val
    omega
  have e2 : dottedT (F := Ideal) x w (ix3 b o (rowOf h v)) = dotted (F := Ideal) x w (ix3 o b (rowOf h v)) :=
    transpose_apply _ _ _ _ _ (fun e => match e with
      | ⟨0, _⟩ => rfl | ⟨1, _⟩ => rfl | ⟨2, _⟩ => rfl)
  rw [e1, e2, dotted_apply, Cert.DeConv.sum_feat]
  unfold Cert.DeConv.val Cert.DeConv.term
  refine Finset.sum_congr rfl fun c _ => Finset.sum_congr rfl fun k _ => ?_
  rw [feats_apply]

/-- The reference's result is the specification's array. -/
theorem refOut_eq (x : FVec Ideal S16x3x224x224 .f32) (w : FVec Ideal S64x135 .f32) :
    refOut (F := Ideal) x w = Cert.DeConv.G x w := by
  funext j
  obtain ⟨b, o, h, v, rfl⟩ : ∃ (b : Fin 16) (o : Fin 64) (h v : Fin 222), j = ix4 b o h v :=
    ⟨j 0, j 1, j 2, j 3, eq_ix4 j⟩
  exact refOut_apply x w b o h v

end Cert.ReferenceIdeal.RefValue

end
-- ==== Proof.lean ====
/-
  The five claims.

  Both idealized programs end, from memories agreeing on the image `x` and the weights `w`, with the result array
      out[b, o, h, v] = Σ_{c < 3} Σ_{k < 45} w[o, 45·c + k] · ( x[b, c, h + A(k)/3, v + A(k)%3] · x[b, c, h + B(k)/3, v + B(k)%3] )
  over the extended reals, `(A(k), B(k))` the `k`-th pair of positions of the 3×3 window. The kernel reaches it tile by
  tile: each grid point forms the 45 products of a channel from nine shifted views of its staged window, multiplies
  the 64 × 45 slice of the weights into them, and adds the three channels' products; the reference gathers the same
  pairs from an unfolded copy of the image and contracts all 135 features at once. The two differ only in how the sum
  over the 135 features is grouped, which addition on the extended reals does not see. No rewrite was made when the
  kernel was idealized, so the preservation claim is empty, and the three frames are the programs' runs with the
  result dropped.
-/
import proofs.«135709_j56427280335471_2_alg».proof.Defs
import proofs.«135709_j56427280335471_2_alg».proof.Proof.Gen.Kernel.Frame
import proofs.«135709_j56427280335471_2_alg».proof.Proof.Gen.KernelIdeal.Frame
import proofs.«135709_j56427280335471_2_alg».proof.Proof.Gen.ReferenceIdeal
import proofs.«135709_j56427280335471_2_alg».proof.Proof.Gen.Pre_finite_inputs
import proofs.«135709_j56427280335471_2_alg».proof.Proof.KFinal
import proofs.«135709_j56427280335471_2_alg».proof.Proof.RefRun
import proofs.«135709_j56427280335471_2_alg».proof.Proof.RefRead

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  by
    intro m ρ m' ρ' _ hagree
    refine ⟨fun c => Cert.DeConv.G (m ((c : Thread Cert.KernelIdeal.nD Cert.KernelIdeal.τ).loc Cert.KernelIdeal.main_arg0))
      (m ((c : Thread Cert.KernelIdeal.nD Cert.KernelIdeal.τ).loc Cert.KernelIdeal.main_arg1)), Cert.KernelIdeal.ArrayValue.run m ρ, ?_⟩
    refine (θ_run Cert.ReferenceIdeal.defs _ _).mono (fun _ h c => ⟨(h c).1.trans ?_, (h c).2⟩) (Cert.ReferenceIdeal.RefRun.run (F := Ideal) m' ρ')
    rw [(hagree c).1, (hagree c).2]
    exact Cert.ReferenceIdeal.RefValue.refOut_eq _ _⟩

end Cert.Proof

end
